-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S800000 : Shape := ⟨1, ![800000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S800000 : S_.BroadcastsInDim S800000 (![] : Fin 0 → Fin S800000.rank)
  reducesTo_S800000_S_d0 : S800000.ReducesTo [0] S_

variable [Facts]

def fn {F : FTy → Type} [FloatOps F] (main_arg0 : FVec F S100000x64 .f32) (main_arg1 : IVec S800000 32) (main_arg2 : IVec S800000 32) (main_arg3 : FVec F S800000 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  main_v8
-- ==== Kernel.lean ====
abbrev S100000x64 : Shape := ⟨2, ![100000, 64]⟩
abbrev S800000 : Shape := ⟨1, ![800000]⟩
abbrev S800000x1 : Shape := ⟨2, ![800000, 1]⟩
abbrev S_ : Shape := ⟨0, ![]⟩
abbrev S800000x64 : Shape := ⟨2, ![800000, 64]⟩
abbrev S8000x1 : Shape := ⟨2, ![8000, 1]⟩
abbrev S8000x64 : Shape := ⟨2, ![8000, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 56
  | .vmem => 42
  | .smem => 0
  | _ => 0

abbrev bufTy : (tb : Table) → Fin (tcTables nBuf tb) → BufTy
  | .hbm, ⟨0, _⟩ => ⟨S100000x64, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S800000x1, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x64, .f32⟩
  | .hbm, ⟨14, _⟩ => ⟨S800000x64, .f32⟩
  | .hbm, ⟨15, _⟩ => ⟨S_, .f32⟩
  | .hbm, ⟨16, _⟩ => ⟨S100000x64, .f32⟩
  | .hbm, ⟨17, _⟩ => ⟨S800000x1, .i32⟩
  | .hbm, ⟨18, _⟩ => ⟨S100000x64, .f32⟩
  | .hbm, ⟨19, _⟩ => ⟨S100000x64, .f32⟩
  | .hbm, ⟨20, _⟩ => ⟨S100000x64, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S800000x64, .f32⟩
  | .hbm, ⟨31, _⟩ => ⟨S_, .f32⟩
  | .hbm, ⟨32, _⟩ => ⟨S100000x64, .f32⟩
  | .hbm, ⟨33, _⟩ => ⟨S800000x1, .i32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x64, .f32⟩
  | .hbm, ⟨46, _⟩ => ⟨S800000x64, .f32⟩
  | .hbm, ⟨47, _⟩ => ⟨S_, .f32⟩
  | .hbm, ⟨48, _⟩ => ⟨S100000x64, .f32⟩
  | .hbm, ⟨49, _⟩ => ⟨S800000x1, .i32⟩
  | .hbm, ⟨50, _⟩ => ⟨S100000x64, .f32⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S100000x64, .f32⟩
  | .hbm, ⟨55, _⟩ => ⟨S100000x64, .f32⟩
  | .local _ .vmem, ⟨0, _⟩ => ⟨S8000x1, .f32⟩
  | .local _ .vmem, ⟨1, _⟩ => ⟨S8000x1, .f32⟩
  | .local _ .vmem, ⟨2, _⟩ => ⟨S8000x64, .f32⟩
  | .local _ .vmem, ⟨3, _⟩ => ⟨S8000x64, .f32⟩
  | .local _ .vmem, ⟨4, _⟩ => ⟨S8000x64, .f32⟩
  | .local _ .vmem, ⟨5, _⟩ => ⟨S8000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S8000x1, .f32⟩
  | .local _ .vmem, ⟨15, _⟩ => ⟨S8000x1, .f32⟩
  | .local _ .vmem, ⟨16, _⟩ => ⟨S8000x64, .f32⟩
  | .local _ .vmem, ⟨17, _⟩ => ⟨S8000x64, .f32⟩
  | .local _ .vmem, ⟨18, _⟩ => ⟨S8000x64, .f32⟩
  | .local _ .vmem, ⟨19, _⟩ => ⟨S8000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S8000x1, .f32⟩
  | .local _ .vmem, ⟨29, _⟩ => ⟨S8000x1, .f32⟩
  | .local _ .vmem, ⟨30, _⟩ => ⟨S8000x64, .f32⟩
  | .local _ .vmem, ⟨31, _⟩ => ⟨S8000x64, .f32⟩
  | .local _ .vmem, ⟨32, _⟩ => ⟨S8000x64, .f32⟩
  | .local _ .vmem, ⟨33, _⟩ => ⟨S8000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36_0 : Ref sig .tc := ⟨.hbm, 51, rfl⟩
abbrev main_v36_1 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  shapeCasts_S800000_S800000x1 : S800000.ShapeCasts S800000x1
  bcast_S_S800000 : S_.BroadcastsInDim S800000 (![] : Fin 0 → Fin S800000.rank)
  bcast_S800000_S800000x1_0 : S800000.BroadcastsInDim S800000x1 (![0] : Fin 1 → Fin S800000x1.rank)
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  broadcasts_S8000x1_S8000x64 : S8000x1.Broadcasts S8000x64
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  reduces_S5000x64_S5000 : S5000x64.Reduces [1] S5000
  shapeCasts_S5000_S5000x1 : S5000.ShapeCasts S5000x1
  broadcasts_S5000x1_S5000x64 : S5000x1.Broadcasts S5000x64
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x1.size a ≤ S800000x1.size a
  hwx0_0 : ∀ i : grid0.Coords, EltTy.bits .f32 = 32 ∨ (Rect.block (s := S800000x1) S8000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .f32 = 32 ∨ (Rect.block (s := S800000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S800000x64.size a
  hwx0_2 : ∀ i : grid0.Coords, EltTy.bits .f32 = 32 ∨ (Rect.block (s := S800000x64) S8000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x1.size a ≤ S800000x1.size a
  hwx2_0 : ∀ i : grid2.Coords, EltTy.bits .f32 = 32 ∨ (Rect.block (s := S800000x1) S8000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S800000x64.size a
  hwx2_1 : ∀ i : grid2.Coords, EltTy.bits .f32 = 32 ∨ (Rect.block (s := S800000x64) S8000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x64.size a ≤ S800000x64.size a
  hwx2_2 : ∀ i : grid2.Coords, EltTy.bits .f32 = 32 ∨ (Rect.block (s := S800000x64) S8000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x1.size a ≤ S800000x1.size a
  hwx4_0 : ∀ i : grid4.Coords, EltTy.bits .f32 = 32 ∨ (Rect.block (s := S800000x1) S8000x1.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x64.size a ≤ S800000x64.size a
  hwx4_1 : ∀ i : grid4.Coords, EltTy.bits .f32 = 32 ∨ (Rect.block (s := S800000x64) S8000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x64.size a ≤ S800000x64.size a
  hwx4_2 : ∀ i : grid4.Coords, EltTy.bits .f32 = 32 ∨ (Rect.block (s := S800000x64) S8000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S100000x64.size a
  hwx5_3 : ∀ i : grid5.Coords, EltTy.bits .f32 = 32 ∨ (Rect.block (s := S100000x64) S5000x64.size (cc5_transform_3 i) (hinb5_3 i)).WholeWords (EltTy.packing .f32)

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf

abbrev win0_0 : Pipeline.Window sig grid0 :=
  Pipeline.Window.ofSpec (Memref.whole main_v0) S8000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S8000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12_0) S5000x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12_1) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0) S8000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S8000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v23) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12_1) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v24_0) S5000x64.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v24_1) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v0) S8000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v31) S8000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v32) S8000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v35) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v24_1) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v36_0) S5000x64.size cc5_transform_2 reads5_2 true false 2 stage5_2 sem5_2
    hrank5 hreads5_2 hinb5_2 nbuf5_2 (Memref.isWhole_whole _) hwx5_2 hstage5_2

abbrev win5_3 : Pipeline.Window sig grid5 :=
  Pipeline.Window.ofSpec (Memref.whole main_v36_1) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x64 : Shape := ⟨2, ![100000, 64]⟩
abbrev S800000 : Shape := ⟨1, ![800000]⟩
abbrev S800000x1 : Shape := ⟨2, ![800000, 1]⟩
abbrev S_ : Shape := ⟨0, ![]⟩
abbrev S800000x64 : Shape := ⟨2, ![800000, 64]⟩
abbrev S100000 : Shape := ⟨1, ![100000]⟩
abbrev S100000x1 : Shape := ⟨2, ![100000, 1]⟩

abbrev nBuf : Space → Nat
  | .hbm => 88
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S800000x1, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x64, .f32⟩
  | .hbm, ⟨14, _⟩ => ⟨S800000x64, .f32⟩
  | .hbm, ⟨15, _⟩ => ⟨S800000x64, .f32⟩
  | .hbm, ⟨16, _⟩ => ⟨S_, .f32⟩
  | .hbm, ⟨17, _⟩ => ⟨S100000x64, .f32⟩
  | .hbm, ⟨18, _⟩ => ⟨S800000x1, .i32⟩
  | .hbm, ⟨19, _⟩ => ⟨S100000x64, .f32⟩
  | .hbm, ⟨20, _⟩ => ⟨S100000x64, .f32⟩
  | .hbm, ⟨21, _⟩ => ⟨S_, .f32⟩
  | .hbm, ⟨22, _⟩ => ⟨S100000, .f32⟩
  | .hbm, ⟨23, _⟩ => ⟨S100000x1, .f32⟩
  | .hbm, ⟨24, _⟩ => ⟨S100000x1, .f32⟩
  | .hbm, ⟨25, _⟩ => ⟨S_, .f32⟩
  | .hbm, ⟨26, _⟩ => ⟨S100000x1, .f32⟩
  | .hbm, ⟨27, _⟩ => ⟨S100000x1, .f32⟩
  | .hbm, ⟨28, _⟩ => ⟨S100000x64, .f32⟩
  | .hbm, ⟨29, _⟩ => ⟨S100000x64, .f32⟩
  | .hbm, ⟨30, _⟩ => ⟨S100000x64, .f32⟩
  | .hbm, ⟨31, _⟩ => ⟨S800000x1, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x64, .f32⟩
  | .hbm, ⟨41, _⟩ => ⟨S800000x64, .f32⟩
  | .hbm, ⟨42, _⟩ => ⟨S800000x64, .f32⟩
  | .hbm, ⟨43, _⟩ => ⟨S_, .f32⟩
  | .hbm, ⟨44, _⟩ => ⟨S100000x64, .f32⟩
  | .hbm, ⟨45, _⟩ => ⟨S800000x1, .i32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000, .f32⟩
  | .hbm, ⟨50, _⟩ => ⟨S100000x1, .f32⟩
  | .hbm, ⟨51, _⟩ => ⟨S100000x1, .f32⟩
  | .hbm, ⟨52, _⟩ => ⟨S_, .f32⟩
  | .hbm, ⟨53, _⟩ => ⟨S100000x1, .f32⟩
  | .hbm, ⟨54, _⟩ => ⟨S100000x1, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S800000x1, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x64, .f32⟩
  | .hbm, ⟨68, _⟩ => ⟨S800000x64, .f32⟩
  | .hbm, ⟨69, _⟩ => ⟨S800000x64, .f32⟩
  | .hbm, ⟨70, _⟩ => ⟨S_, .f32⟩
  | .hbm, ⟨71, _⟩ => ⟨S100000x64, .f32⟩
  | .hbm, ⟨72, _⟩ => ⟨S800000x1, .i32⟩
  | .hbm, ⟨73, _⟩ => ⟨S100000x64, .f32⟩
  | .hbm, ⟨74, _⟩ => ⟨S100000x64, .f32⟩
  | .hbm, ⟨75, _⟩ => ⟨S_, .f32⟩
  | .hbm, ⟨76, _⟩ => ⟨S100000, .f32⟩
  | .hbm, ⟨77, _⟩ => ⟨S100000x1, .f32⟩
  | .hbm, ⟨78, _⟩ => ⟨S100000x1, .f32⟩
  | .hbm, ⟨79, _⟩ => ⟨S_, .f32⟩
  | .hbm, ⟨80, _⟩ => ⟨S100000x1, .f32⟩
  | .hbm, ⟨81, _⟩ => ⟨S100000x1, .f32⟩
  | .hbm, ⟨82, _⟩ => ⟨S100000x64, .f32⟩
  | .hbm, ⟨83, _⟩ => ⟨S100000x64, .f32⟩
  | .hbm, ⟨84, _⟩ => ⟨S100000x64, .f32⟩
  | .hbm, ⟨85, _⟩ => ⟨S_, .f32⟩
  | .hbm, ⟨86, _⟩ => ⟨S100000x64, .f32⟩
  | .hbm, ⟨87, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_8 : Ref sig .tc := ⟨.hbm, 59, rfl⟩
abbrev main_v45 : Ref sig .tc := ⟨.hbm, 60, rfl⟩
abbrev main_v46 : Ref sig .tc := ⟨.hbm, 61, rfl⟩
abbrev main_c_9 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_10 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_11 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_12 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_13 : Ref sig .tc := ⟨.hbm, 85, rfl⟩
abbrev main_v66 : Ref sig .tc := ⟨.hbm, 86, rfl⟩
abbrev main_v67 : Ref sig .tc := ⟨.hbm, 87, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S100000x64 : S_.BroadcastsInDim S100000x64 (![] : Fin 0 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf

class Facts : Prop extends Facts₀ where

variable [Facts]
-- ==== Proof.KernelRun.lean ====
/-
  The kernel program's run, with its result read.

  The program is thirteen segments: seven stretches of host operations and, between them, six kernel launches.  The
  buffer contents at each boundary are a fold from the launch memory: a host stretch applies its operations, a launch
  replaces each of its output arrays by what its grid points wrote back and leaves every other buffer alone.  Every
  weakly fair execution ends with every unscoped buffer at the last boundary's contents; read at the result buffer
  this names the program's result as the fold's value there, and at the four argument buffers it gives them back
  unchanged.
-/
import proofs.«158241_j75917841924400_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the argument
    arrays as launched. -/
theorem run_last : θ_run defs (onTc (τ := τ) (main (F := F))) ⟨m, fun _ => 0, ρ⟩ (fun r => ∀ c : Dev nD,
      r.2.mem ((c.tc : Thread nD τ).loc main_v38) = W13 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v38 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c)⟩)

end Cert.KernelIdeal.Hand

end
-- ==== Proof.Spec.lean ====
/-
  The specification: three rounds of sparse message passing with row normalisation, as whole-array functions.

  One round takes node features `h` (100000 rows of 64), an edge list (`rows`, `cols`, one weight `vals` per edge) and
  returns the row-normalised weighted neighbour sum: edge `e` carries the message `vals e · h (cols e)`, the messages of
  the edges pointing at row `r` are added up, and each row of the sum is divided by its Euclidean length, bounded below
  by a small constant.  The result is the mean of the input features and the three rounds' outputs.

  The gather of rows and the scatter-add of messages are kept as the host's own functions: both programs apply the
  same ones to the same arguments, so nothing about them is needed beyond their being functions.  What is read at an
  index here is what differs in arrangement between the two programs: the per-edge product and the normalisation.
-/
import proofs.«158241_j75917841924400_1_alg».proof.Proof.Gen.ReferenceIdeal
import Idealize.ShloMosaic.Lib.Pipeline.Value
import Idealize.ShloMosaic.Lib.ValueIdx
import Idealize.ShloMosaic.PureOps.Ideal.Laws

open scoped BigOperators

noncomputable section

namespace Cert.Spec

open Cert.ReferenceIdeal Cert.ReferenceIdeal.Gen Idealize.ShloMosaic Idealize.ShloMosaic.ValueIdx

/-- A float array of a given shape at the extended reals. -/
abbrev FArr (s : Shape) := FVec Ideal s .f32
/-- A 32-bit integer array of a given shape. -/
abbrev IArr (s : Shape) := IVec s 32

/-- The source-node indices as a column, a negative index counted from the end. -/
def sourceIdx (cols : IArr S800000) : IArr S800000x1 :=
  broadcastInDim S800000x1 ![0] bcast_S800000_S800000x1_0
    (select (cmpi .slt cols (broadcastInDim S800000 ![] bcast_S_S800000 (constantI S_ 32 0#32)))
      (addi cols (broadcastInDim S800000 ![] bcast_S_S800000 (constantI S_ 32 100000#32))) cols)

/-- The feature row of each edge's source node. -/
def gathered (h : FArr S100000x64) (cols : IArr S800000) : FArr S800000x64 :=
  Host.gather gather_S100000x64_S800000x1_S800000x64_1_0_n_n_0_1_164 h (sourceIdx cols)

/-- Each edge's message: its weight (a column) times its source row. -/
def messages (w : FArr S800000x1) (g : FArr S800000x64) : FArr S800000x64 :=
  mulf (broadcastInDim S800000x64 ![0, 1] bcast_S800000x1_S800000x64_0_1 w) g

/-- The messages added up per destination row, from zero. -/
def segmentSum (rows : IArr S800000) (msg : FArr S800000x64) : FArr S100000x64 :=
  Host.scatterAdd scatter_S100000x64_S800000x1_S800000x64_1_0_0_1
    (broadcastInDim S100000x64 ![] bcast_S_S100000x64 (constant (F := Ideal) S_ .f32 0x00000000#32))
    (broadcastInDim S800000x1 ![0] bcast_S800000_S800000x1_0 rows) msg

/-- Each row divided by its Euclidean length, the length bounded below by the constant `0x2B8CBCCC`. -/
def normalize (s : FArr S100000x64) : FArr S100000x64 :=
  Host.divf s (broadcastInDim S100000x64 ![0, 1] bcast_S100000x1_S100000x64_0_1
    (maximumf (Host.sqrt (broadcastInDim S100000x1 ![0] bcast_S100000_S100000x1_0
        (Host.reduceAdd (mulf s s) (constant (F := Ideal) S_ .f32 0x00000000#32) reducesTo_S100000x64_S100000_d1 h_S_)))
      (broadcastInDim S100000x1 ![] bcast_S_S100000x1 (constant (F := Ideal) S_ .f32 0x2B8CBCCC#32))))

/-- The edge weights as a column. -/
def weightCol (vals : FArr S800000) : FArr S800000x1 :=
  broadcastInDim S800000x1 ![0] bcast_S800000_S800000x1_0 vals

/-- One round: gather, weigh, add up per destination, normalise. -/
def round (rows cols : IArr S800000) (vals : FArr S800000) (h : FArr S100000x64) : FArr S100000x64 :=
  normalize (segmentSum rows (messages (weightCol vals) (gathered h cols)))

/-- The mean of the input features and the three rounds' outputs. -/
def result (x : FArr S100000x64) (rows cols : IArr S800000) (vals : FArr S800000) : FArr S100000x64 :=
  Host.divf
    (addf (addf (addf x (round rows cols vals x)) (round rows cols vals (round rows cols vals x)))
      (round rows cols vals (round rows cols vals (round rows cols vals x))))
    (broadcastInDim S100000x64 ![] bcast_S_S100000x64 (constant (F := Ideal) S_ .f32 0x40800000#32))

/-! ## Read at an index -/

/-- The host's quotient at an index is the quotient of the entries. -/
theorem hostDivf_apply {s : Shape} (a b : FArr s) (i : s.Idx) : Host.divf a b i = Ideal.div (a i) (b i) := rfl
/-- The host's square root at an index is the square root of the entry. -/
theorem hostSqrt_apply {s : Shape} (a : FArr s) (i : s.Idx) : Host.sqrt a i = Ideal.sqrt (a i) := rfl

/-- The message of edge `e` at feature `d` is the edge's weight times its source row's entry. -/
theorem messages_apply (w : FArr S800000x1) (g : FArr S800000x64) (e : Fin 800000) (d : Fin 64) :
    messages w g (ix2 e d) = w (ix2 e (0 : Fin 1)) * g (ix2 e d) := by
  unfold messages
  rw [mulf_apply]
  rw [broadcastInDim_apply _ bcast_S800000x1_S800000x64_0_1 w (ix2 e d) (ix2 e (0 : Fin 1)) (fun a => match a with
    | ⟨0, _⟩ => by show e.val = if (800000 : Nat) = 1 then 0 else e.val; rw [if_neg (by decide)]
    | ⟨1, _⟩ => by show 0 = if (1 : Nat) = 1 then 0 else d.val; rw [if_pos rfl])]

/-- The sum of squares along a row, as the host adds it up from zero. -/
theorem rowSquares_apply (s : FArr S100000x64) (r : Fin 100000) :
    Host.reduceAdd (mulf s s) (constant (F := Ideal) S_ .f32 0x00000000#32) reducesTo_S100000x64_S100000_d1 h_S_ (ix1 r)
      = ∑ k : Fin 64, s (ix2 r k) * s (ix2 r k) := by
  simp only [Host.reduceAdd, Ideal.hostReduceAdd_def]
  rw [Ideal.hostReduceAdd_single reducesTo_S100000x64_S100000_d1 (by decide)]
  rw [constant_apply, Ideal.ofBits_zero_f32, zero_add]
  refine Finset.sum_congr rfl fun k _ => ?_
  rw [mulf_apply]
  have e : (Shape.Reduces.lift (s := S100000x64) (t := S100000) (a := (1 : Fin 2)) (by decide) (ix1 r) k) = ix2 r k :=
    funext fun a => Fin.ext (by match a with | ⟨0, _⟩ => rfl | ⟨1, _⟩ => rfl)
  rw [e]
  rfl

/-- The normalised array at `(r, d)`: the entry over the larger of the row's length and the constant. -/
theorem normalize_apply (s : FArr S100000x64) (r : Fin 100000) (d : Fin 64) :
    normalize s (ix2 r d)
      = Ideal.div (s (ix2 r d)) (max (Ideal.sqrt (∑ k : Fin 64, s (ix2 r k) * s (ix2 r k))) (Ideal.ofBits .f32 0x2B8CBCCC#32)) := by
  unfold normalize
  rw [hostDivf_apply]
  rw [broadcastInDim_apply _ bcast_S100000x1_S100000x64_0_1 _ (ix2 r d) (ix2 r (0 : Fin 1)) (fun a => match a with
    | ⟨0, _⟩ => by show r.val = if (100000 : Nat) = 1 then 0 else r.val; rw [if_neg (by decide)]
    | ⟨1, _⟩ => by show 0 = if (1 : Nat) = 1 then 0 else d.val; rw [if_pos rfl])]
  rw [maximumf_apply, hostSqrt_apply]
  rw [broadcastInDim_apply _ bcast_S100000_S100000x1_0 _ (ix2 r (0 : Fin 1)) (ix1 r) (fun a => match a with
    | ⟨0, _⟩ => by show r.val = if (100000 : Nat) = 1 then 0 else r.val; rw [if_neg (by decide)])]
  rw [broadcastInDim_apply _ bcast_S_S100000x1 _ (ix2 r (0 : Fin 1)) ix0 (fun a => a.elim0)]
  rw [rowSquares_apply, constant_apply]

end Cert.Spec

end
-- ==== Proof.LibKeepdims.lean ====
/-
  Layout operations of a `keepdims` reduction, read at an index given by coordinates, and a rank-2 float sum along one
  axis read at the extended reals.

  A vector of `a` entries viewed as an `a × 1` column holds entry `i` at `(i, 0)`; an `a × 1` column broadcast to
  `a × b` holds, at `(p, c)`, the column's entry `(p, 0)`; the sum of an `a × b` array along its second axis is, at
  row `r`, the sum over the `b` columns of the entries of that row, and along its first axis, at column `c`, the sum
  over the `a` rows of the entries of that column.  Indices are written with the literal-size constructors
  `ix1`, `ix2`, so that each lemma applies to a printed operation by unification.
-/
import Idealize.ShloMosaic.Lib.Pipeline.Value
import Idealize.ShloMosaic.Lib.ValueIdx
import Idealize.ShloMosaic.PureOps.Ideal.Laws

open scoped BigOperators

namespace Cert.LibKeepdims

open Idealize.ShloMosaic Idealize.ShloMosaic.ValueIdx

variable {α : Type}

/-- A vector cast to a column, `[a] → [a, 1]`, reads entry `i` at `(i, 0)`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its unit axis, `[a, 1] → [a, b]`, reads at `(p, c)` the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable {φ : FTy}

/-- ROW SUMS. At the extended reals the float sum of an `a × b` array along its second axis is, at row `r`, the sum
    over the columns `c` of the entries `(r, c)`. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => Fin.ext ?_)
  rw [h.lift_val]
  unfold Shape.Reduces.liftVal
  match ax with
  | ⟨0, _⟩ => rfl
  | ⟨1, _⟩ => rfl

/-- COLUMN SUMS. Along its first axis the sum is, at column `c`, the sum over the rows `r` of the entries `(r, c)`. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  rw [h.lift_val]
  unfold Shape.Reduces.liftVal
  match ax with
  | ⟨0, _⟩ => rfl
  | ⟨1, _⟩ => rfl

end Cert.LibKeepdims
-- ==== Proof.HostOps.lean ====
/-
  The kernel program's seven stretches of host operations, each read at the buffers that matter later.

  From any buffer contents `W`: the first stretch reshapes the edge weights into a column — the same column the
  reference gets by broadcasting — and gathers the input features' rows at the source indices; each later odd stretch
  adds a launch's messages up per destination row; each later even stretch gathers the previous round's rows; the last
  divides the running total by four.  A buffer no operation of a stretch writes keeps its contents.
-/
import proofs.«158241_j75917841924400_1_alg».proof.Proof.Gen.KernelIdeal.Launch
import proofs.«158241_j75917841924400_1_alg».proof.Proof.Spec
import proofs.«158241_j75917841924400_1_alg».proof.Proof.LibKeepdims
import Idealize.ShloMosaic.Lib.StableHlo.Run

noncomputable section

namespace Cert.KernelIdeal.HostOps

open Cert.KernelIdeal Cert.KernelIdeal.Gen Idealize.ShloMosaic Idealize.ShloMosaic.TcCoe Idealize.SL.Sem
open Idealize.ShloMosaic.StableHlo Idealize.ShloMosaic.ValueIdx

/-- A vector of edge weights reshaped into a column is the column that broadcasting it gives: entry `e` at `(e, 0)`. -/
theorem reshape_col (v : Cert.Spec.FArr S800000) (h : S800000.ShapeCasts S800000x1) :
    (fun i => shapeCast S800000x1 v h i) = Cert.Spec.weightCol v := by
  funext j
  obtain ⟨e, u, rfl⟩ : ∃ (e : Fin 800000) (u : Fin 1), j = ix2 e u := ⟨j 0, j 1, eq_ix2 j⟩
  rw [Cert.LibKeepdims.shapeCast_a_a1_apply]
  unfold Cert.Spec.weightCol
  rw [broadcastInDim_apply _ _ v (ix2 e u) (ix1 e) (fun a => match a with
    | ⟨0, _⟩ => by show e.val = if (800000 : Nat) = 1 then 0 else e.val; rw [if_neg (by decide)])]

variable (W : Valuation τ sig (Elt Ideal))

/-- Stretch 0: the edge weights as a column. -/
theorem ops0_weights : after hostOps0 W (Proc.devRef .tc main_v0) = Cert.Spec.weightCol (W (Proc.devRef .tc main_arg3)) := by
  dsimp only [hostOps0]
  after_results
  exact reshape_col _ _

/-- Stretch 0: the rows of `main_arg0` gathered at the source indices. -/
theorem ops0_gather : after hostOps0 W (Proc.devRef .tc main_v7)
    = Cert.Spec.gathered (W (Proc.devRef .tc main_arg0)) (W (Proc.devRef .tc main_arg2)) := by
  dsimp only [hostOps0]
  after_results
  rfl
theorem ops0_keep_arg0 : after hostOps0 W (Proc.devRef .tc main_arg0) = W (Proc.devRef .tc main_arg0) := by
  dsimp only [hostOps0]
  after_results
theorem ops0_keep_arg1 : after hostOps0 W (Proc.devRef .tc main_arg1) = W (Proc.devRef .tc main_arg1) := by
  dsimp only [hostOps0]
  after_results
theorem ops0_keep_arg2 : after hostOps0 W (Proc.devRef .tc main_arg2) = W (Proc.devRef .tc main_arg2) := by
  dsimp only [hostOps0]
  after_results

/-- Stretch 1: the messages in `main_v8` added up per destination row. -/
theorem ops1_sum : after hostOps1 W (Proc.devRef .tc main_v11)
    = Cert.Spec.segmentSum (W (Proc.devRef .tc main_arg1)) (W (Proc.devRef .tc main_v8)) := by
  dsimp only [hostOps1]
  after_results
  rfl
theorem ops1_keep_arg0 : after hostOps1 W (Proc.devRef .tc main_arg0) = W (Proc.devRef .tc main_arg0) := by
  dsimp only [hostOps1]
  after_results
theorem ops1_keep_arg1 : after hostOps1 W (Proc.devRef .tc main_arg1) = W (Proc.devRef .tc main_arg1) := by
  dsimp only [hostOps1]
  after_results
theorem ops1_keep_arg2 : after hostOps1 W (Proc.devRef .tc main_arg2) = W (Proc.devRef .tc main_arg2) := by
  dsimp only [hostOps1]
  after_results
theorem ops1_keep_v0 : after hostOps1 W (Proc.devRef .tc main_v0) = W (Proc.devRef .tc main_v0) := by
  dsimp only [hostOps1]
  after_results

/-- Stretch 2: the rows of `main_v12_0` gathered at the source indices. -/
theorem ops2_gather : after hostOps2 W (Proc.devRef .tc main_v19)
    = Cert.Spec.gathered (W (Proc.devRef .tc main_v12_0)) (W (Proc.devRef .tc main_arg2)) := by
  dsimp only [hostOps2]
  after_results
  rfl
theorem ops2_keep_arg1 : after hostOps2 W (Proc.devRef .tc main_arg1) = W (Proc.devRef .tc main_arg1) := by
  dsimp only [hostOps2]
  after_results
theorem ops2_keep_arg2 : after hostOps2 W (Proc.devRef .tc main_arg2) = W (Proc.devRef .tc main_arg2) := by
  dsimp only [hostOps2]
  after_results
theorem ops2_keep_v0 : after hostOps2 W (Proc.devRef .tc main_v0) = W (Proc.devRef .tc main_v0) := by
  dsimp only [hostOps2]
  after_results
theorem ops2_keep_v12_1 : after hostOps2 W (Proc.devRef .tc main_v12_1) = W (Proc.devRef .tc main_v12_1) := by
  dsimp only [hostOps2]
  after_results

/-- Stretch 3: the messages in `main_v20` added up per destination row. -/
theorem ops3_sum : after hostOps3 W (Proc.devRef .tc main_v23)
    = Cert.Spec.segmentSum (W (Proc.devRef .tc main_arg1)) (W (Proc.devRef .tc main_v20)) := by
  dsimp only [hostOps3]
  after_results
  rfl
theorem ops3_keep_arg1 : after hostOps3 W (Proc.devRef .tc main_arg1) = W (Proc.devRef .tc main_arg1) := by
  dsimp only [hostOps3]
  after_results
theorem ops3_keep_arg2 : after hostOps3 W (Proc.devRef .tc main_arg2) = W (Proc.devRef .tc main_arg2) := by
  dsimp only [hostOps3]
  after_results
theorem ops3_keep_v0 : after hostOps3 W (Proc.devRef .tc main_v0) = W (Proc.devRef .tc main_v0) := by
  dsimp only [hostOps3]
  after_results
theorem ops3_keep_v12_1 : after hostOps3 W (Proc.devRef .tc main_v12_1) = W (Proc.devRef .tc main_v12_1) := by
  dsimp only [hostOps3]
  after_results

/-- Stretch 4: the rows of `main_v24_0` gathered at the source indices. -/
theorem ops4_gather : after hostOps4 W (Proc.devRef .tc main_v31)
    = Cert.Spec.gathered (W (Proc.devRef .tc main_v24_0)) (W (Proc.devRef .tc main_arg2)) := by
  dsimp only [hostOps4]
  after_results
  rfl
theorem ops4_keep_arg1 : after hostOps4 W (Proc.devRef .tc main_arg1) = W (Proc.devRef .tc main_arg1) := by
  dsimp only [hostOps4]
  after_results
theorem ops4_keep_v0 : after hostOps4 W (Proc.devRef .tc main_v0) = W (Proc.devRef .tc main_v0) := by
  dsimp only [hostOps4]
  after_results
theorem ops4_keep_v24_1 : after hostOps4 W (Proc.devRef .tc main_v24_1) = W (Proc.devRef .tc main_v24_1) := by
  dsimp only [hostOps4]
  after_results

/-- Stretch 5: the messages in `main_v32` added up per destination row. -/
theorem ops5_sum : after hostOps5 W (Proc.devRef .tc main_v35)
    = Cert.Spec.segmentSum (W (Proc.devRef .tc main_arg1)) (W (Proc.devRef .tc main_v32)) := by
  dsimp only [hostOps5]
  after_results
  rfl
theorem ops5_keep_v24_1 : after hostOps5 W (Proc.devRef .tc main_v24_1) = W (Proc.devRef .tc main_v24_1) := by
  dsimp only [hostOps5]
  after_results

/-- The last stretch: the running total divided by four. -/
theorem ops6_mean : after hostOps6 W (Proc.devRef .tc main_v38)
    = Host.divf (F := Ideal) (φ := .f32) (W (Proc.devRef .tc main_v36_1) : Cert.Spec.FArr S100000x64)
        (broadcastInDim S100000x64 ![] bcast_S_S100000x64 (constant (F := Ideal) S_ .f32 0x40800000#32)) := by
  dsimp only [hostOps6]
  after_results

end Cert.KernelIdeal.HostOps

end
-- ==== Proof.Payload.lean ====
/-
  What the two kernel bodies store, read at an index of the block.

  The edge kernel's body multiplies a block of 8000 edge weights, held as a column, into the 8000 gathered rows: at
  `(p, d)` the stored value is the weight of edge `p` times the row's entry.  The node kernel's body divides each of its
  5000 rows by the larger of the row's Euclidean length and a constant, and adds the quotient onto the running total:
  at `(p, d)` the first stored value is the entry over that bound, the second the total's entry plus the first.
  The three launches of each kernel print the same body three times; the later copies are the first by definition.
-/
import proofs.«158241_j75917841924400_1_alg».proof.Proof.Gen.KernelIdeal.Skeleton
import proofs.«158241_j75917841924400_1_alg».proof.Proof.LibKeepdims
import Idealize.ShloMosaic.Lib.Pipeline.Value
import Idealize.ShloMosaic.Lib.ValueIdx
import Idealize.ShloMosaic.PureOps.Ideal.Laws

open scoped BigOperators

noncomputable section

namespace Cert.KernelIdeal.Payload

open Cert.KernelIdeal Cert.KernelIdeal.Gen Idealize.ShloMosaic Idealize.ShloMosaic.ValueIdx Cert.LibKeepdims

/-- The row bound: the larger of the row's Euclidean length and the constant `0x2B8CBCCC`. -/
def rowBound {n : Nat} (x : FVec Ideal ⟨2, ![n, 64]⟩ .f32) (p : Fin n) : EReal :=
  max (Ideal.sqrt (∑ k : Fin 64, x (ix2 p k) * x (ix2 p k))) (Ideal.ofBits .f32 0x2B8CBCCC#32)

/-- A vector square root at an index is the square root of the entry. -/
theorem vsqrt_apply {s : Shape} {φ : FTy} (a : FVec Ideal s φ) (i : s.Idx) : sqrt a i = Ideal.sqrt (a i) := rfl

/-- The edge kernel stores, at `(p, d)`, the weight of edge `p` times the gathered row's entry. -/
theorem edge_apply (w : Vec Ideal S8000x1 .f32) (g : Vec Ideal S8000x64 .f32) (p : Fin 8000) (d : Fin 64) :
    k0_pay1 w g (ix2 p d) = w (ix2 p (0 : Fin 1)) * g (ix2 p d) := by
  unfold k0_pay1
  rw [mulf_apply, shapeCast_self, shapeCast_self, broadcastTo_a1_ab_apply]

theorem edge2_apply (w : Vec Ideal S8000x1 .f32) (g : Vec Ideal S8000x64 .f32) (p : Fin 8000) (d : Fin 64) :
    k2_pay1 w g (ix2 p d) = w (ix2 p (0 : Fin 1)) * g (ix2 p d) := edge_apply w g p d

theorem edge4_apply (w : Vec Ideal S8000x1 .f32) (g : Vec Ideal S8000x64 .f32) (p : Fin 8000) (d : Fin 64) :
    k4_pay1 w g (ix2 p d) = w (ix2 p (0 : Fin 1)) * g (ix2 p d) := edge_apply w g p d

/-- The lane sum of a block's squares along row `p`, from the zero word: the sum over the row of the squared entries. -/
theorem rowSquares_apply (s : FVec Ideal S5000x64 .f32) (h : S5000x64.Reduces [1] S5000) (hφ : FKind.Formats .f32)
    (hacc : (0x00000000#32 : BitVec 32) = 0x00000000#32) (p : Fin 5000) :
    multiReduction .add [1] S5000 (mulf s s) 0x00000000#32 h hφ hacc (ix1 p) = ∑ k : Fin 64, s (ix2 p k) * s (ix2 p k) :=
  (multiReduction_add_rows (mulf s s) 0x00000000#32 h hφ hacc p).trans (by simp only [mulf_apply])

/-- The node kernel's first store, at `(p, d)`: the entry over the row's bound. -/
theorem norm_apply (s : Vec Ideal S5000x64 .f32) (p : Fin 5000) (d : Fin 64) :
    k1_pay1 s (ix2 p d) = Ideal.div (s (ix2 p d)) (rowBound s p) := by
  unfold k1_pay1
  rw [divf_apply, shapeCast_self, broadcastTo_a1_ab_apply, maximumf_apply, vsqrt_apply, shapeCast_a_a1_apply,
    rowSquares_apply, broadcast_apply]
  rfl

theorem norm3_apply (s : Vec Ideal S5000x64 .f32) (p : Fin 5000) (d : Fin 64) :
    k3_pay1 s (ix2 p d) = Ideal.div (s (ix2 p d)) (rowBound s p) := norm_apply s p d

theorem norm5_apply (s : Vec Ideal S5000x64 .f32) (p : Fin 5000) (d : Fin 64) :
    k5_pay1 s (ix2 p d) = Ideal.div (s (ix2 p d)) (rowBound s p) := norm_apply s p d

/-- The node kernel's second store, at `(p, d)`: the running total's entry plus the normalised entry. -/
theorem acc_apply (s a : Vec Ideal S5000x64 .f32) (p : Fin 5000) (d : Fin 64) :
    k1_pay2 s a (ix2 p d) = a (ix2 p d) + Ideal.div (s (ix2 p d)) (rowBound s p) := by
  unfold k1_pay2
  rw [addf_apply, norm_apply]

theorem acc3_apply (s a : Vec Ideal S5000x64 .f32) (p : Fin 5000) (d : Fin 64) :
    k3_pay2 s a (ix2 p d) = a (ix2 p d) + Ideal.div (s (ix2 p d)) (rowBound s p) := by
  unfold k3_pay2
  rw [addf_apply, shapeCast_self, norm3_apply]

theorem acc5_apply (s a : Vec Ideal S5000x64 .f32) (p : Fin 5000) (d : Fin 64) :
    k5_pay2 s a (ix2 p d) = a (ix2 p d) + Ideal.div (s (ix2 p d)) (rowBound s p) := by
  unfold k5_pay2
  rw [addf_apply, shapeCast_self, norm5_apply]

end Cert.KernelIdeal.Payload

end
-- ==== Proof.LibIdxOfCoords.lean ====
/-
  An index is the constructor of its coordinates.

  A multi-index of a literal shape is a function of the axis; two such functions are equal when their coordinates are
  equal as numbers. These lemmas name an index `j` of rank 1, 2 or 3 as `ix1` / `ix2` / `ix3` of given coordinates
  from one equation of values per axis — the form in which a composed layout index (a slice of a reshape of a
  broadcast …) is usually known: each coordinate an arithmetic expression that `rfl` or `omega` identifies.
-/
import Idealize.ShloMosaic.Lib.ValueIdx

namespace Cert.IdxOfCoords

open Idealize.ShloMosaic Idealize.ShloMosaic.ValueIdx

/-- A rank-1 index whose coordinate has the value of `a` is `ix1 a`. -/
theorem ix1_of {n : Nat} (j : (⟨1, ![n]⟩ : Shape).Idx) (a : Fin n) (h : (j 0).val = a.val) : j = ix1 a :=
  funext fun d => match d with | ⟨0, _⟩ => Fin.ext h

/-- A rank-2 index whose coordinates have the values of `a` and `b` is `ix2 a b`. -/
theorem ix2_of {n0 n1 : Nat} (j : (⟨2, ![n0, n1]⟩ : Shape).Idx) (a : Fin n0) (b : Fin n1)
    (h0 : (j 0).val = a.val) (h1 : (j 1).val = b.val) : j = ix2 a b :=
  funext fun d => match d with | ⟨0, _⟩ => Fin.ext h0 | ⟨1, _⟩ => Fin.ext h1

/-- A rank-3 index whose coordinates have the values of `a`, `b` and `c` is `ix3 a b c`. -/
theorem ix3_of {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c :=
  funext fun d => match d with | ⟨0, _⟩ => Fin.ext h0 | ⟨1, _⟩ => Fin.ext h1 | ⟨2, _⟩ => Fin.ext h2

end Cert.IdxOfCoords
-- ==== Proof.Edge0.lean ====
/-
  Launch 0 (the edge kernel): its output array as one function of its input arrays.

  The grid has 100 points; point `t` sees rows `8000 t … 8000 t + 7999` of the weight column, of the gathered rows and
  of the output, all three windows moving together.  So the block a point writes back is that block of rows of the
  per-edge product of the two whole input arrays, and the 100 blocks tile the 800000 rows: after the launch the output
  array is the product.
-/
import proofs.«158241_j75917841924400_1_alg».proof.Proof.Gen.KernelIdeal.Frame
import proofs.«158241_j75917841924400_1_alg».proof.Proof.Spec
import proofs.«158241_j75917841924400_1_alg».proof.Proof.Payload
import proofs.«158241_j75917841924400_1_alg».proof.Proof.LibIdxOfCoords
import Idealize.ShloMosaic.Lib.Pipeline.Value

set_option maxRecDepth 16384

noncomputable section

namespace Cert.KernelIdeal.Edge0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every window's block index at point `t` is `(t, 0)`: decided over the grid. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 100 :=
  lt_of_lt_of_eq t.isLt (show cfg0.N = 100 from N_0)

/-- The weight block at point `t`, row `p`: the weight column's row `8000 t + p`. -/
theorem weight_at (c : Dev nD) (t : Fin cfg0.N) (p : Fin 8000) (e : Fin 800000) (he : e.val = t.val * 8000 + p.val) :
    (iblk0 V c 0 t : Vec Ideal S8000x1 .f32) (ix2 p (0 : Fin 1)) = (V c main_v0 : Cert.Spec.FArr S800000x1) (ix2 e (0 : Fin 1)) := by
  obtain ⟨e0, e1, -, -, -, -⟩ := idx_facts t
  unfold iblk0
  rw [View.read_apply]
  show V c main_v0 _ = V c main_v0 _
  refine congrArg (V c main_v0 : S800000x1.Idx → Elt Ideal .f32) ?_
  refine Cert.IdxOfCoords.ix2_of (n0 := 800000) (n1 := 1) _ e 0 ?_ ?_
  · show win0_0.index t (0 : Fin 2) * 8000 + 1 * p.val = e.val
    rw [e0, he]; omega
  · show win0_0.index t (1 : Fin 2) * 1 + 1 * 0 = 0
    rw [e1]

/-- The row block at point `t`, entry `(p, d)`: the gathered array's entry `(8000 t + p, d)`. -/
theorem row_at (c : Dev nD) (t : Fin cfg0.N) (p : Fin 8000) (d : Fin 64) (e : Fin 800000) (he : e.val = t.val * 8000 + p.val) :
    (iblk0 V c 1 t : Vec Ideal S8000x64 .f32) (ix2 p d) = (V c main_v7 : Cert.Spec.FArr S800000x64) (ix2 e d) := by
  obtain ⟨-, -, e2, e3, -, -⟩ := idx_facts t
  unfold iblk0
  rw [View.read_apply]
  show V c main_v7 _ = V c main_v7 _
  refine congrArg (V c main_v7 : S800000x64.Idx → Elt Ideal .f32) ?_
  refine Cert.IdxOfCoords.ix2_of (n0 := 800000) (n1 := 64) _ e d ?_ ?_
  · show win0_1.index t (0 : Fin 2) * 8000 + 1 * p.val = e.val
    rw [e2, he]; omega
  · show win0_1.index t (1 : Fin 2) * 64 + 1 * d.val = d.val
    rw [e3]; omega

/-- What point `t` writes back is block `t` of the per-edge product of the two input arrays. -/
theorem flushed_eq (c : Dev nD) (t : Fin cfg0.N) :
    (dat0 V c).flushed 2 t
      = ((cfg0.win 2).blk t).view.read (Elt Ideal) (Cert.Spec.messages (V c main_v0) (V c main_v7)) := by
  show (cfg0.win 2).cut (grid0.coords t) ((dat0 V c).after 2 t) = _
  rw [after0_2]
  unfold out0_2
  rw [View.canon_unit_zero hz]
  simp only [View.ld_unit_zero (S := S8000x1) hz, View.ld_unit_zero (S := S8000x64) hz]
  refine funext fun (j : S8000x64.Idx) => ?_
  obtain ⟨p, d, rfl⟩ : ∃ (p : Fin 8000) (d : Fin 64), j = ix2 p d := ⟨j 0, j 1, eq_ix2 j⟩
  have ht := point_lt t
  obtain ⟨-, -, -, -, e4, e5⟩ := idx_facts t
  let e : Fin 800000 := ⟨t.val * 8000 + p.val, by have := p.isLt; omega⟩
  have he : e.val = t.val * 8000 + p.val := rfl
  have hi : ((cfg0.win 2).blk t).view.emb (ix2 p d) = ix2 e d := by
    refine Cert.IdxOfCoords.ix2_of (n0 := 800000) (n1 := 64) _ e d ?_ ?_
    · show win0_2.index t (0 : Fin 2) * 8000 + 1 * p.val = e.val
      rw [e4, he]; omega
    · show win0_2.index t (1 : Fin 2) * 64 + 1 * d.val = d.val
      rw [e5]; omega
  show k0_pay1 (iblk0 V c 0 t) (iblk0 V c 1 t) (ix2 p d)
    = Cert.Spec.messages (V c main_v0) (V c main_v7) (((cfg0.win 2).blk t).view.emb (ix2 p d))
  rw [hi, Cert.Spec.messages_apply]
  refine (Cert.KernelIdeal.Payload.edge_apply (iblk0 V c 0 t) (iblk0 V c 1 t) p d).trans ?_
  rw [weight_at V c t p e he, row_at V c t p d e he]

/-- An index of the output array is in point `t`'s block iff each coordinate is in the block's range on its axis. -/
theorem mem_blk (t : Fin cfg0.N) (i : S800000x64.Idx) :
    i ∈ ((cfg0.win 2).blk t).view.set
      ↔ ∀ a : Fin 2, win0_2.index t a * S8000x64.size a ≤ (i a).val ∧ (i a).val < win0_2.index t a * S8000x64.size a + S8000x64.size a := by
  show i ∈ ((View.whole main_v8).slice (win0_2.rect t)).set ↔ _
  rw [View.set_slice_whole, Rect.mem_set_unit]
  exact Iff.rfl

/-- After the launch the output array is the per-edge product: the 100 blocks of 8000 rows tile it. -/
theorem final (c : Dev nD) : (dat0 V c).arrAt 2 cfg0.N = Cert.Spec.messages (V c main_v0) (V c main_v7) :=
  (dat0 V c).arrAt_eq_of_cover 2 _ (fun t _ => flushed_eq V c t) fun i => by
    have hi0 : (i 0).val < 800000 := (i 0).isLt
    have hi1 : (i 1).val < 64 := (i 1).isLt
    let t : Fin cfg0.N := ⟨(i 0).val / 8000, by rw [show cfg0.N = 100 from N_0]; omega⟩
    have htv : t.val = (i 0).val / 8000 := rfl
    obtain ⟨-, -, -, -, e4, e5⟩ := idx_facts t
    refine ⟨t, flush0_2 t, ?_⟩
    rw [mem_blk]
    intro a
    match a with
    | ⟨0, _⟩ =>
      show win0_2.index t (0 : Fin 2) * 8000 ≤ (i 0).val ∧ (i 0).val < win0_2.index t (0 : Fin 2) * 8000 + 8000
      rw [e4, htv]; omega
    | ⟨1, _⟩ =>
      show win0_2.index t (1 : Fin 2) * 64 ≤ (i 1).val ∧ (i 1).val < win0_2.index t (1 : Fin 2) * 64 + 64
      rw [e5]; omega

end Cert.KernelIdeal.Edge0

end
-- ==== Proof.Edge2.lean ====
/-
  Launch 2 (the edge kernel): its output array as one function of its input arrays.

  The grid has 100 points; point `t` sees rows `8000 t … 8000 t + 7999` of the weight column, of the gathered rows and
  of the output, all three windows moving together.  So the block a point writes back is that block of rows of the
  per-edge product of the two whole input arrays, and the 100 blocks tile the 800000 rows: after the launch the output
  array is the product.
-/
import proofs.«158241_j75917841924400_1_alg».proof.Proof.Gen.KernelIdeal.Frame
import proofs.«158241_j75917841924400_1_alg».proof.Proof.Spec
import proofs.«158241_j75917841924400_1_alg».proof.Proof.Payload
import proofs.«158241_j75917841924400_1_alg».proof.Proof.LibIdxOfCoords
import Idealize.ShloMosaic.Lib.Pipeline.Value

set_option maxRecDepth 16384

noncomputable section

namespace Cert.KernelIdeal.Edge2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every window's block index at point `t` is `(t, 0)`: decided over the grid. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

theorem point_lt (t : Fin cfg2.N) : t.val < 100 :=
  lt_of_lt_of_eq t.isLt (show cfg2.N = 100 from N_2)

/-- The weight block at point `t`, row `p`: the weight column's row `8000 t + p`. -/
theorem weight_at (c : Dev nD) (t : Fin cfg2.N) (p : Fin 8000) (e : Fin 800000) (he : e.val = t.val * 8000 + p.val) :
    (iblk2 V c 0 t : Vec Ideal S8000x1 .f32) (ix2 p (0 : Fin 1)) = (V c main_v0 : Cert.Spec.FArr S800000x1) (ix2 e (0 : Fin 1)) := by
  obtain ⟨e0, e1, -, -, -, -⟩ := idx_facts t
  unfold iblk2
  rw [View.read_apply]
  show V c main_v0 _ = V c main_v0 _
  refine congrArg (V c main_v0 : S800000x1.Idx → Elt Ideal .f32) ?_
  refine Cert.IdxOfCoords.ix2_of (n0 := 800000) (n1 := 1) _ e 0 ?_ ?_
  · show win2_0.index t (0 : Fin 2) * 8000 + 1 * p.val = e.val
    rw [e0, he]; omega
  · show win2_0.index t (1 : Fin 2) * 1 + 1 * 0 = 0
    rw [e1]

/-- The row block at point `t`, entry `(p, d)`: the gathered array's entry `(8000 t + p, d)`. -/
theorem row_at (c : Dev nD) (t : Fin cfg2.N) (p : Fin 8000) (d : Fin 64) (e : Fin 800000) (he : e.val = t.val * 8000 + p.val) :
    (iblk2 V c 1 t : Vec Ideal S8000x64 .f32) (ix2 p d) = (V c main_v19 : Cert.Spec.FArr S800000x64) (ix2 e d) := by
  obtain ⟨-, -, e2, e3, -, -⟩ := idx_facts t
  unfold iblk2
  rw [View.read_apply]
  show V c main_v19 _ = V c main_v19 _
  refine congrArg (V c main_v19 : S800000x64.Idx → Elt Ideal .f32) ?_
  refine Cert.IdxOfCoords.ix2_of (n0 := 800000) (n1 := 64) _ e d ?_ ?_
  · show win2_1.index t (0 : Fin 2) * 8000 + 1 * p.val = e.val
    rw [e2, he]; omega
  · show win2_1.index t (1 : Fin 2) * 64 + 1 * d.val = d.val
    rw [e3]; omega

/-- What point `t` writes back is block `t` of the per-edge product of the two input arrays. -/
theorem flushed_eq (c : Dev nD) (t : Fin cfg2.N) :
    (dat2 V c).flushed 2 t
      = ((cfg2.win 2).blk t).view.read (Elt Ideal) (Cert.Spec.messages (V c main_v0) (V c main_v19)) := by
  show (cfg2.win 2).cut (grid2.coords t) ((dat2 V c).after 2 t) = _
  rw [after2_2]
  unfold out2_2
  rw [View.canon_unit_zero hz]
  simp only [View.ld_unit_zero (S := S8000x1) hz, View.ld_unit_zero (S := S8000x64) hz]
  refine funext fun (j : S8000x64.Idx) => ?_
  obtain ⟨p, d, rfl⟩ : ∃ (p : Fin 8000) (d : Fin 64), j = ix2 p d := ⟨j 0, j 1, eq_ix2 j⟩
  have ht := point_lt t
  obtain ⟨-, -, -, -, e4, e5⟩ := idx_facts t
  let e : Fin 800000 := ⟨t.val * 8000 + p.val, by have := p.isLt; omega⟩
  have he : e.val = t.val * 8000 + p.val := rfl
  have hi : ((cfg2.win 2).blk t).view.emb (ix2 p d) = ix2 e d := by
    refine Cert.IdxOfCoords.ix2_of (n0 := 800000) (n1 := 64) _ e d ?_ ?_
    · show win2_2.index t (0 : Fin 2) * 8000 + 1 * p.val = e.val
      rw [e4, he]; omega
    · show win2_2.index t (1 : Fin 2) * 64 + 1 * d.val = d.val
      rw [e5]; omega
  show k2_pay1 (iblk2 V c 0 t) (iblk2 V c 1 t) (ix2 p d)
    = Cert.Spec.messages (V c main_v0) (V c main_v19) (((cfg2.win 2).blk t).view.emb (ix2 p d))
  rw [hi, Cert.Spec.messages_apply]
  refine (Cert.KernelIdeal.Payload.edge2_apply (iblk2 V c 0 t) (iblk2 V c 1 t) p d).trans ?_
  rw [weight_at V c t p e he, row_at V c t p d e he]

/-- An index of the output array is in point `t`'s block iff each coordinate is in the block's range on its axis. -/
theorem mem_blk (t : Fin cfg2.N) (i : S800000x64.Idx) :
    i ∈ ((cfg2.win 2).blk t).view.set
      ↔ ∀ a : Fin 2, win2_2.index t a * S8000x64.size a ≤ (i a).val ∧ (i a).val < win2_2.index t a * S8000x64.size a + S8000x64.size a := by
  show i ∈ ((View.whole main_v20).slice (win2_2.rect t)).set ↔ _
  rw [View.set_slice_whole, Rect.mem_set_unit]
  exact Iff.rfl

/-- After the launch the output array is the per-edge product: the 100 blocks of 8000 rows tile it. -/
theorem final (c : Dev nD) : (dat2 V c).arrAt 2 cfg2.N = Cert.Spec.messages (V c main_v0) (V c main_v19) :=
  (dat2 V c).arrAt_eq_of_cover 2 _ (fun t _ => flushed_eq V c t) fun i => by
    have hi0 : (i 0).val < 800000 := (i 0).isLt
    have hi1 : (i 1).val < 64 := (i 1).isLt
    let t : Fin cfg2.N := ⟨(i 0).val / 8000, by rw [show cfg2.N = 100 from N_2]; omega⟩
    have htv : t.val = (i 0).val / 8000 := rfl
    obtain ⟨-, -, -, -, e4, e5⟩ := idx_facts t
    refine ⟨t, flush2_2 t, ?_⟩
    rw [mem_blk]
    intro a
    match a with
    | ⟨0, _⟩ =>
      show win2_2.index t (0 : Fin 2) * 8000 ≤ (i 0).val ∧ (i 0).val < win2_2.index t (0 : Fin 2) * 8000 + 8000
      rw [e4, htv]; omega
    | ⟨1, _⟩ =>
      show win2_2.index t (1 : Fin 2) * 64 ≤ (i 1).val ∧ (i 1).val < win2_2.index t (1 : Fin 2) * 64 + 64
      rw [e5]; omega

end Cert.KernelIdeal.Edge2

end
-- ==== Proof.Edge4.lean ====
/-
  Launch 4 (the edge kernel): its output array as one function of its input arrays.

  The grid has 100 points; point `t` sees rows `8000 t … 8000 t + 7999` of the weight column, of the gathered rows and
  of the output, all three windows moving together.  So the block a point writes back is that block of rows of the
  per-edge product of the two whole input arrays, and the 100 blocks tile the 800000 rows: after the launch the output
  array is the product.
-/
import proofs.«158241_j75917841924400_1_alg».proof.Proof.Gen.KernelIdeal.Frame
import proofs.«158241_j75917841924400_1_alg».proof.Proof.Spec
import proofs.«158241_j75917841924400_1_alg».proof.Proof.Payload
import proofs.«158241_j75917841924400_1_alg».proof.Proof.LibIdxOfCoords
import Idealize.ShloMosaic.Lib.Pipeline.Value

set_option maxRecDepth 16384

noncomputable section

namespace Cert.KernelIdeal.Edge4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every window's block index at point `t` is `(t, 0)`: decided over the grid. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

theorem point_lt (t : Fin cfg4.N) : t.val < 100 :=
  lt_of_lt_of_eq t.isLt (show cfg4.N = 100 from N_4)

/-- The weight block at point `t`, row `p`: the weight column's row `8000 t + p`. -/
theorem weight_at (c : Dev nD) (t : Fin cfg4.N) (p : Fin 8000) (e : Fin 800000) (he : e.val = t.val * 8000 + p.val) :
    (iblk4 V c 0 t : Vec Ideal S8000x1 .f32) (ix2 p (0 : Fin 1)) = (V c main_v0 : Cert.Spec.FArr S800000x1) (ix2 e (0 : Fin 1)) := by
  obtain ⟨e0, e1, -, -, -, -⟩ := idx_facts t
  unfold iblk4
  rw [View.read_apply]
  show V c main_v0 _ = V c main_v0 _
  refine congrArg (V c main_v0 : S800000x1.Idx → Elt Ideal .f32) ?_
  refine Cert.IdxOfCoords.ix2_of (n0 := 800000) (n1 := 1) _ e 0 ?_ ?_
  · show win4_0.index t (0 : Fin 2) * 8000 + 1 * p.val = e.val
    rw [e0, he]; omega
  · show win4_0.index t (1 : Fin 2) * 1 + 1 * 0 = 0
    rw [e1]

/-- The row block at point `t`, entry `(p, d)`: the gathered array's entry `(8000 t + p, d)`. -/
theorem row_at (c : Dev nD) (t : Fin cfg4.N) (p : Fin 8000) (d : Fin 64) (e : Fin 800000) (he : e.val = t.val * 8000 + p.val) :
    (iblk4 V c 1 t : Vec Ideal S8000x64 .f32) (ix2 p d) = (V c main_v31 : Cert.Spec.FArr S800000x64) (ix2 e d) := by
  obtain ⟨-, -, e2, e3, -, -⟩ := idx_facts t
  unfold iblk4
  rw [View.read_apply]
  show V c main_v31 _ = V c main_v31 _
  refine congrArg (V c main_v31 : S800000x64.Idx → Elt Ideal .f32) ?_
  refine Cert.IdxOfCoords.ix2_of (n0 := 800000) (n1 := 64) _ e d ?_ ?_
  · show win4_1.index t (0 : Fin 2) * 8000 + 1 * p.val = e.val
    rw [e2, he]; omega
  · show win4_1.index t (1 : Fin 2) * 64 + 1 * d.val = d.val
    rw [e3]; omega

/-- What point `t` writes back is block `t` of the per-edge product of the two input arrays. -/
theorem flushed_eq (c : Dev nD) (t : Fin cfg4.N) :
    (dat4 V c).flushed 2 t
      = ((cfg4.win 2).blk t).view.read (Elt Ideal) (Cert.Spec.messages (V c main_v0) (V c main_v31)) := by
  show (cfg4.win 2).cut (grid4.coords t) ((dat4 V c).after 2 t) = _
  rw [after4_2]
  unfold out4_2
  rw [View.canon_unit_zero hz]
  simp only [View.ld_unit_zero (S := S8000x1) hz, View.ld_unit_zero (S := S8000x64) hz]
  refine funext fun (j : S8000x64.Idx) => ?_
  obtain ⟨p, d, rfl⟩ : ∃ (p : Fin 8000) (d : Fin 64), j = ix2 p d := ⟨j 0, j 1, eq_ix2 j⟩
  have ht := point_lt t
  obtain ⟨-, -, -, -, e4, e5⟩ := idx_facts t
  let e : Fin 800000 := ⟨t.val * 8000 + p.val, by have := p.isLt; omega⟩
  have he : e.val = t.val * 8000 + p.val := rfl
  have hi : ((cfg4.win 2).blk t).view.emb (ix2 p d) = ix2 e d := by
    refine Cert.IdxOfCoords.ix2_of (n0 := 800000) (n1 := 64) _ e d ?_ ?_
    · show win4_2.index t (0 : Fin 2) * 8000 + 1 * p.val = e.val
      rw [e4, he]; omega
    · show win4_2.index t (1 : Fin 2) * 64 + 1 * d.val = d.val
      rw [e5]; omega
  show k4_pay1 (iblk4 V c 0 t) (iblk4 V c 1 t) (ix2 p d)
    = Cert.Spec.messages (V c main_v0) (V c main_v31) (((cfg4.win 2).blk t).view.emb (ix2 p d))
  rw [hi, Cert.Spec.messages_apply]
  refine (Cert.KernelIdeal.Payload.edge4_apply (iblk4 V c 0 t) (iblk4 V c 1 t) p d).trans ?_
  rw [weight_at V c t p e he, row_at V c t p d e he]

/-- An index of the output array is in point `t`'s block iff each coordinate is in the block's range on its axis. -/
theorem mem_blk (t : Fin cfg4.N) (i : S800000x64.Idx) :
    i ∈ ((cfg4.win 2).blk t).view.set
      ↔ ∀ a : Fin 2, win4_2.index t a * S8000x64.size a ≤ (i a).val ∧ (i a).val < win4_2.index t a * S8000x64.size a + S8000x64.size a := by
  show i ∈ ((View.whole main_v32).slice (win4_2.rect t)).set ↔ _
  rw [View.set_slice_whole, Rect.mem_set_unit]
  exact Iff.rfl

/-- After the launch the output array is the per-edge product: the 100 blocks of 8000 rows tile it. -/
theorem final (c : Dev nD) : (dat4 V c).arrAt 2 cfg4.N = Cert.Spec.messages (V c main_v0) (V c main_v31) :=
  (dat4 V c).arrAt_eq_of_cover 2 _ (fun t _ => flushed_eq V c t) fun i => by
    have hi0 : (i 0).val < 800000 := (i 0).isLt
    have hi1 : (i 1).val < 64 := (i 1).isLt
    let t : Fin cfg4.N := ⟨(i 0).val / 8000, by rw [show cfg4.N = 100 from N_4]; omega⟩
    have htv : t.val = (i 0).val / 8000 := rfl
    obtain ⟨-, -, -, -, e4, e5⟩ := idx_facts t
    refine ⟨t, flush4_2 t, ?_⟩
    rw [mem_blk]
    intro a
    match a with
    | ⟨0, _⟩ =>
      show win4_2.index t (0 : Fin 2) * 8000 ≤ (i 0).val ∧ (i 0).val < win4_2.index t (0 : Fin 2) * 8000 + 8000
      rw [e4, htv]; omega
    | ⟨1, _⟩ =>
      show win4_2.index t (1 : Fin 2) * 64 ≤ (i 1).val ∧ (i 1).val < win4_2.index t (1 : Fin 2) * 64 + 64
      rw [e5]; omega

end Cert.KernelIdeal.Edge4

end
-- ==== Proof.Node1.lean ====
/-
  Launch 1 (the node kernel): its two output arrays as functions of its two input arrays.

  The grid has 20 points; point `t` sees rows `5000 t … 5000 t + 4999` of the summed messages, of the running total and
  of both outputs, all four windows moving together.  A row's normalisation uses that row only, and a block holds whole
  rows, so the row bound computed inside a block is the row bound of the whole array.  Hence the first block a point
  writes back is that block of rows of the normalised array, the second that block of the running total plus the
  normalised array, and the 20 blocks tile the 100000 rows.
-/
import proofs.«158241_j75917841924400_1_alg».proof.Proof.Gen.KernelIdeal.Frame
import proofs.«158241_j75917841924400_1_alg».proof.Proof.Spec
import proofs.«158241_j75917841924400_1_alg».proof.Proof.Payload
import proofs.«158241_j75917841924400_1_alg».proof.Proof.LibIdxOfCoords
import Idealize.ShloMosaic.Lib.Pipeline.Value

set_option maxRecDepth 16384

open scoped BigOperators

noncomputable section

namespace Cert.KernelIdeal.Node1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every window's block index at point `t` is `(t, 0)`: decided over the grid. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

theorem point_lt (t : Fin cfg1.N) : t.val < 20 :=
  lt_of_lt_of_eq t.isLt (show cfg1.N = 20 from N_1)

/-- The summed-message block at point `t`, entry `(p, d)`: the array's entry `(5000 t + p, d)`. -/
theorem sum_at (c : Dev nD) (t : Fin cfg1.N) (p : Fin 5000) (d : Fin 64) (r : Fin 100000) (hr : r.val = t.val * 5000 + p.val) :
    (iblk1 V c 0 t : Vec Ideal S5000x64 .f32) (ix2 p d) = (V c main_v11 : Cert.Spec.FArr S100000x64) (ix2 r d) := by
  obtain ⟨e0, e1, -, -, -, -, -, -⟩ := idx_facts t
  unfold iblk1
  rw [View.read_apply]
  show V c main_v11 _ = V c main_v11 _
  refine congrArg (V c main_v11 : S100000x64.Idx → Elt Ideal .f32) ?_
  refine Cert.IdxOfCoords.ix2_of (n0 := 100000) (n1 := 64) _ r d ?_ ?_
  · show win1_0.index t (0 : Fin 2) * 5000 + 1 * p.val = r.val
    rw [e0, hr]; omega
  · show win1_0.index t (1 : Fin 2) * 64 + 1 * d.val = d.val
    rw [e1]; omega

/-- The running-total block at point `t`, entry `(p, d)`: the array's entry `(5000 t + p, d)`. -/
theorem total_at (c : Dev nD) (t : Fin cfg1.N) (p : Fin 5000) (d : Fin 64) (r : Fin 100000) (hr : r.val = t.val * 5000 + p.val) :
    (iblk1 V c 1 t : Vec Ideal S5000x64 .f32) (ix2 p d) = (V c main_arg0 : Cert.Spec.FArr S100000x64) (ix2 r d) := by
  obtain ⟨-, -, e2, e3, -, -, -, -⟩ := idx_facts t
  unfold iblk1
  rw [View.read_apply]
  show V c main_arg0 _ = V c main_arg0 _
  refine congrArg (V c main_arg0 : S100000x64.Idx → Elt Ideal .f32) ?_
  refine Cert.IdxOfCoords.ix2_of (n0 := 100000) (n1 := 64) _ r d ?_ ?_
  · show win1_1.index t (0 : Fin 2) * 5000 + 1 * p.val = r.val
    rw [e2, hr]; omega
  · show win1_1.index t (1 : Fin 2) * 64 + 1 * d.val = d.val
    rw [e3]; omega

/-- A block holds whole rows: the bound of row `p` of the block is the bound of row `5000 t + p` of the array. -/
theorem bound_at (c : Dev nD) (t : Fin cfg1.N) (p : Fin 5000) (r : Fin 100000) (hr : r.val = t.val * 5000 + p.val) :
    Cert.KernelIdeal.Payload.rowBound (n := 5000) (iblk1 V c 0 t : Vec Ideal S5000x64 .f32) p
      = Cert.KernelIdeal.Payload.rowBound (n := 100000) (V c main_v11 : Cert.Spec.FArr S100000x64) r := by
  unfold Cert.KernelIdeal.Payload.rowBound
  refine congrArg (fun z => max (Ideal.sqrt z) _) (Finset.sum_congr rfl fun k _ => ?_)
  rw [sum_at V c t p k r hr]

/-- The normalised array at `(r, d)` in terms of the row bound. -/
theorem normalize_at (s : Cert.Spec.FArr S100000x64) (r : Fin 100000) (d : Fin 64) :
    Cert.Spec.normalize s (ix2 r d) = Ideal.div (s (ix2 r d)) (Cert.KernelIdeal.Payload.rowBound (n := 100000) s r) :=
  Cert.Spec.normalize_apply s r d

/-- The array index of entry `(p, d)` of output block `t` (either output window). -/
theorem out2_emb (t : Fin cfg1.N) (p : Fin 5000) (d : Fin 64) (r : Fin 100000) (hr : r.val = t.val * 5000 + p.val) :
    ((cfg1.win 2).blk t).view.emb (ix2 p d) = ix2 r d := by
  obtain ⟨-, -, -, -, e4, e5, -, -⟩ := idx_facts t
  refine Cert.IdxOfCoords.ix2_of (n0 := 100000) (n1 := 64) _ r d ?_ ?_
  · show win1_2.index t (0 : Fin 2) * 5000 + 1 * p.val = r.val
    rw [e4, hr]; omega
  · show win1_2.index t (1 : Fin 2) * 64 + 1 * d.val = d.val
    rw [e5]; omega

theorem out3_emb (t : Fin cfg1.N) (p : Fin 5000) (d : Fin 64) (r : Fin 100000) (hr : r.val = t.val * 5000 + p.val) :
    ((cfg1.win 3).blk t).view.emb (ix2 p d) = ix2 r d := by
  obtain ⟨-, -, -, -, -, -, e6, e7⟩ := idx_facts t
  refine Cert.IdxOfCoords.ix2_of (n0 := 100000) (n1 := 64) _ r d ?_ ?_
  · show win1_3.index t (0 : Fin 2) * 5000 + 1 * p.val = r.val
    rw [e6, hr]; omega
  · show win1_3.index t (1 : Fin 2) * 64 + 1 * d.val = d.val
    rw [e7]; omega

/-- What point `t` writes back to the first output is block `t` of the normalised array. -/
theorem flushed2_eq (c : Dev nD) (t : Fin cfg1.N) :
    (dat1 V c).flushed 2 t
      = ((cfg1.win 2).blk t).view.read (Elt Ideal) (Cert.Spec.normalize (V c main_v11)) := by
  show (cfg1.win 2).cut (grid1.coords t) ((dat1 V c).after 2 t) = _
  rw [after1_2]
  unfold out1_2
  rw [View.canon_unit_zero hz]
  simp only [View.ld_unit_zero (S := S5000x64) hz]
  refine funext fun (j : S5000x64.Idx) => ?_
  obtain ⟨p, d, rfl⟩ : ∃ (p : Fin 5000) (d : Fin 64), j = ix2 p d := ⟨j 0, j 1, eq_ix2 j⟩
  have ht := point_lt t
  let r : Fin 100000 := ⟨t.val * 5000 + p.val, by have := p.isLt; omega⟩
  have hr : r.val = t.val * 5000 + p.val := rfl
  show k1_pay1 (iblk1 V c 0 t) (ix2 p d)
    = Cert.Spec.normalize (V c main_v11) (((cfg1.win 2).blk t).view.emb (ix2 p d))
  rw [out2_emb t p d r hr, normalize_at]
  refine (Cert.KernelIdeal.Payload.norm_apply (iblk1 V c 0 t) p d).trans ?_
  rw [sum_at V c t p d r hr, bound_at V c t p r hr]

/-- What point `t` writes back to the second output is block `t` of the running total plus the normalised array. -/
theorem flushed3_eq (c : Dev nD) (t : Fin cfg1.N) :
    (dat1 V c).flushed 3 t
      = ((cfg1.win 3).blk t).view.read (Elt Ideal)
          (addf (F := Ideal) (φ := .f32) (V c main_arg0 : Cert.Spec.FArr S100000x64) (Cert.Spec.normalize (V c main_v11))) := by
  show (cfg1.win 3).cut (grid1.coords t) ((dat1 V c).after 3 t) = _
  rw [after1_3]
  unfold out1_3
  rw [View.canon_unit_zero hz]
  simp only [View.ld_unit_zero (S := S5000x64) hz]
  refine funext fun (j : S5000x64.Idx) => ?_
  obtain ⟨p, d, rfl⟩ : ∃ (p : Fin 5000) (d : Fin 64), j = ix2 p d := ⟨j 0, j 1, eq_ix2 j⟩
  have ht := point_lt t
  let r : Fin 100000 := ⟨t.val * 5000 + p.val, by have := p.isLt; omega⟩
  have hr : r.val = t.val * 5000 + p.val := rfl
  show k1_pay2 (iblk1 V c 0 t) (iblk1 V c 1 t) (ix2 p d)
    = addf (F := Ideal) (φ := .f32) (V c main_arg0 : Cert.Spec.FArr S100000x64) (Cert.Spec.normalize (V c main_v11)) (((cfg1.win 3).blk t).view.emb (ix2 p d))
  rw [out3_emb t p d r hr, addf_apply, normalize_at]
  refine (Cert.KernelIdeal.Payload.acc_apply (iblk1 V c 0 t) (iblk1 V c 1 t) p d).trans ?_
  rw [sum_at V c t p d r hr, total_at V c t p d r hr, bound_at V c t p r hr]

/-- An index of the first output array is in point `t`'s block iff each coordinate is in the block's range. -/
theorem mem_blk2 (t : Fin cfg1.N) (i : S100000x64.Idx) :
    i ∈ ((cfg1.win 2).blk t).view.set
      ↔ ∀ a : Fin 2, win1_2.index t a * S5000x64.size a ≤ (i a).val ∧ (i a).val < win1_2.index t a * S5000x64.size a + S5000x64.size a := by
  show i ∈ ((View.whole main_v12_0).slice (win1_2.rect t)).set ↔ _
  rw [View.set_slice_whole, Rect.mem_set_unit]
  exact Iff.rfl

theorem mem_blk3 (t : Fin cfg1.N) (i : S100000x64.Idx) :
    i ∈ ((cfg1.win 3).blk t).view.set
      ↔ ∀ a : Fin 2, win1_3.index t a * S5000x64.size a ≤ (i a).val ∧ (i a).val < win1_3.index t a * S5000x64.size a + S5000x64.size a := by
  show i ∈ ((View.whole main_v12_1).slice (win1_3.rect t)).set ↔ _
  rw [View.set_slice_whole, Rect.mem_set_unit]
  exact Iff.rfl

/-- After the launch the first output array is the normalised array: the 20 blocks of 5000 rows tile it. -/
theorem final2 (c : Dev nD) : (dat1 V c).arrAt 2 cfg1.N = Cert.Spec.normalize (V c main_v11) :=
  (dat1 V c).arrAt_eq_of_cover 2 _ (fun t _ => flushed2_eq V c t) fun i => by
    have hi0 : (i 0).val < 100000 := (i 0).isLt
    have hi1 : (i 1).val < 64 := (i 1).isLt
    let t : Fin cfg1.N := ⟨(i 0).val / 5000, by rw [show cfg1.N = 20 from N_1]; omega⟩
    have htv : t.val = (i 0).val / 5000 := rfl
    obtain ⟨-, -, -, -, e4, e5, -, -⟩ := idx_facts t
    refine ⟨t, flush1_2 t, ?_⟩
    rw [mem_blk2]
    intro a
    match a with
    | ⟨0, _⟩ =>
      show win1_2.index t (0 : Fin 2) * 5000 ≤ (i 0).val ∧ (i 0).val < win1_2.index t (0 : Fin 2) * 5000 + 5000
      rw [e4, htv]; omega
    | ⟨1, _⟩ =>
      show win1_2.index t (1 : Fin 2) * 64 ≤ (i 1).val ∧ (i 1).val < win1_2.index t (1 : Fin 2) * 64 + 64
      rw [e5]; omega

/-- After the launch the second output array is the running total plus the normalised array. -/
theorem final3 (c : Dev nD) : (dat1 V c).arrAt 3 cfg1.N
    = addf (F := Ideal) (φ := .f32) (V c main_arg0 : Cert.Spec.FArr S100000x64) (Cert.Spec.normalize (V c main_v11)) :=
  (dat1 V c).arrAt_eq_of_cover 3 _ (fun t _ => flushed3_eq V c t) fun i => by
    have hi0 : (i 0).val < 100000 := (i 0).isLt
    have hi1 : (i 1).val < 64 := (i 1).isLt
    let t : Fin cfg1.N := ⟨(i 0).val / 5000, by rw [show cfg1.N = 20 from N_1]; omega⟩
    have htv : t.val = (i 0).val / 5000 := rfl
    obtain ⟨-, -, -, -, -, -, e6, e7⟩ := idx_facts t
    refine ⟨t, flush1_3 t, ?_⟩
    rw [mem_blk3]
    intro a
    match a with
    | ⟨0, _⟩ =>
      show win1_3.index t (0 : Fin 2) * 5000 ≤ (i 0).val ∧ (i 0).val < win1_3.index t (0 : Fin 2) * 5000 + 5000
      rw [e6, htv]; omega
    | ⟨1, _⟩ =>
      show win1_3.index t (1 : Fin 2) * 64 ≤ (i 1).val ∧ (i 1).val < win1_3.index t (1 : Fin 2) * 64 + 64
      rw [e7]; omega

end Cert.KernelIdeal.Node1

end
-- ==== Proof.Node3.lean ====
/-
  Launch 3 (the node kernel): its two output arrays as functions of its two input arrays.

  The grid has 20 points; point `t` sees rows `5000 t … 5000 t + 4999` of the summed messages, of the running total and
  of both outputs, all four windows moving together.  A row's normalisation uses that row only, and a block holds whole
  rows, so the row bound computed inside a block is the row bound of the whole array.  Hence the first block a point
  writes back is that block of rows of the normalised array, the second that block of the running total plus the
  normalised array, and the 20 blocks tile the 100000 rows.
-/
import proofs.«158241_j75917841924400_1_alg».proof.Proof.Gen.KernelIdeal.Frame
import proofs.«158241_j75917841924400_1_alg».proof.Proof.Spec
import proofs.«158241_j75917841924400_1_alg».proof.Proof.Payload
import proofs.«158241_j75917841924400_1_alg».proof.Proof.LibIdxOfCoords
import Idealize.ShloMosaic.Lib.Pipeline.Value

set_option maxRecDepth 16384

open scoped BigOperators

noncomputable section

namespace Cert.KernelIdeal.Node3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every window's block index at point `t` is `(t, 0)`: decided over the grid. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

theorem point_lt (t : Fin cfg3.N) : t.val < 20 :=
  lt_of_lt_of_eq t.isLt (show cfg3.N = 20 from N_3)

/-- The summed-message block at point `t`, entry `(p, d)`: the array's entry `(5000 t + p, d)`. -/
theorem sum_at (c : Dev nD) (t : Fin cfg3.N) (p : Fin 5000) (d : Fin 64) (r : Fin 100000) (hr : r.val = t.val * 5000 + p.val) :
    (iblk3 V c 0 t : Vec Ideal S5000x64 .f32) (ix2 p d) = (V c main_v23 : Cert.Spec.FArr S100000x64) (ix2 r d) := by
  obtain ⟨e0, e1, -, -, -, -, -, -⟩ := idx_facts t
  unfold iblk3
  rw [View.read_apply]
  show V c main_v23 _ = V c main_v23 _
  refine congrArg (V c main_v23 : S100000x64.Idx → Elt Ideal .f32) ?_
  refine Cert.IdxOfCoords.ix2_of (n0 := 100000) (n1 := 64) _ r d ?_ ?_
  · show win3_0.index t (0 : Fin 2) * 5000 + 1 * p.val = r.val
    rw [e0, hr]; omega
  · show win3_0.index t (1 : Fin 2) * 64 + 1 * d.val = d.val
    rw [e1]; omega

/-- The running-total block at point `t`, entry `(p, d)`: the array's entry `(5000 t + p, d)`. -/
theorem total_at (c : Dev nD) (t : Fin cfg3.N) (p : Fin 5000) (d : Fin 64) (r : Fin 100000) (hr : r.val = t.val * 5000 + p.val) :
    (iblk3 V c 1 t : Vec Ideal S5000x64 .f32) (ix2 p d) = (V c main_v12_1 : Cert.Spec.FArr S100000x64) (ix2 r d) := by
  obtain ⟨-, -, e2, e3, -, -, -, -⟩ := idx_facts t
  unfold iblk3
  rw [View.read_apply]
  show V c main_v12_1 _ = V c main_v12_1 _
  refine congrArg (V c main_v12_1 : S100000x64.Idx → Elt Ideal .f32) ?_
  refine Cert.IdxOfCoords.ix2_of (n0 := 100000) (n1 := 64) _ r d ?_ ?_
  · show win3_1.index t (0 : Fin 2) * 5000 + 1 * p.val = r.val
    rw [e2, hr]; omega
  · show win3_1.index t (1 : Fin 2) * 64 + 1 * d.val = d.val
    rw [e3]; omega

/-- A block holds whole rows: the bound of row `p` of the block is the bound of row `5000 t + p` of the array. -/
theorem bound_at (c : Dev nD) (t : Fin cfg3.N) (p : Fin 5000) (r : Fin 100000) (hr : r.val = t.val * 5000 + p.val) :
    Cert.KernelIdeal.Payload.rowBound (n := 5000) (iblk3 V c 0 t : Vec Ideal S5000x64 .f32) p
      = Cert.KernelIdeal.Payload.rowBound (n := 100000) (V c main_v23 : Cert.Spec.FArr S100000x64) r := by
  unfold Cert.KernelIdeal.Payload.rowBound
  refine congrArg (fun z => max (Ideal.sqrt z) _) (Finset.sum_congr rfl fun k _ => ?_)
  rw [sum_at V c t p k r hr]

/-- The normalised array at `(r, d)` in terms of the row bound. -/
theorem normalize_at (s : Cert.Spec.FArr S100000x64) (r : Fin 100000) (d : Fin 64) :
    Cert.Spec.normalize s (ix2 r d) = Ideal.div (s (ix2 r d)) (Cert.KernelIdeal.Payload.rowBound (n := 100000) s r) :=
  Cert.Spec.normalize_apply s r d

/-- The array index of entry `(p, d)` of output block `t` (either output window). -/
theorem out2_emb (t : Fin cfg3.N) (p : Fin 5000) (d : Fin 64) (r : Fin 100000) (hr : r.val = t.val * 5000 + p.val) :
    ((cfg3.win 2).blk t).view.emb (ix2 p d) = ix2 r d := by
  obtain ⟨-, -, -, -, e4, e5, -, -⟩ := idx_facts t
  refine Cert.IdxOfCoords.ix2_of (n0 := 100000) (n1 := 64) _ r d ?_ ?_
  · show win3_2.index t (0 : Fin 2) * 5000 + 1 * p.val = r.val
    rw [e4, hr]; omega
  · show win3_2.index t (1 : Fin 2) * 64 + 1 * d.val = d.val
    rw [e5]; omega

theorem out3_emb (t : Fin cfg3.N) (p : Fin 5000) (d : Fin 64) (r : Fin 100000) (hr : r.val = t.val * 5000 + p.val) :
    ((cfg3.win 3).blk t).view.emb (ix2 p d) = ix2 r d := by
  obtain ⟨-, -, -, -, -, -, e6, e7⟩ := idx_facts t
  refine Cert.IdxOfCoords.ix2_of (n0 := 100000) (n1 := 64) _ r d ?_ ?_
  · show win3_3.index t (0 : Fin 2) * 5000 + 1 * p.val = r.val
    rw [e6, hr]; omega
  · show win3_3.index t (1 : Fin 2) * 64 + 1 * d.val = d.val
    rw [e7]; omega

/-- What point `t` writes back to the first output is block `t` of the normalised array. -/
theorem flushed2_eq (c : Dev nD) (t : Fin cfg3.N) :
    (dat3 V c).flushed 2 t
      = ((cfg3.win 2).blk t).view.read (Elt Ideal) (Cert.Spec.normalize (V c main_v23)) := by
  show (cfg3.win 2).cut (grid3.coords t) ((dat3 V c).after 2 t) = _
  rw [after3_2]
  unfold out3_2
  rw [View.canon_unit_zero hz]
  simp only [View.ld_unit_zero (S := S5000x64) hz]
  refine funext fun (j : S5000x64.Idx) => ?_
  obtain ⟨p, d, rfl⟩ : ∃ (p : Fin 5000) (d : Fin 64), j = ix2 p d := ⟨j 0, j 1, eq_ix2 j⟩
  have ht := point_lt t
  let r : Fin 100000 := ⟨t.val * 5000 + p.val, by have := p.isLt; omega⟩
  have hr : r.val = t.val * 5000 + p.val := rfl
  show k3_pay1 (iblk3 V c 0 t) (ix2 p d)
    = Cert.Spec.normalize (V c main_v23) (((cfg3.win 2).blk t).view.emb (ix2 p d))
  rw [out2_emb t p d r hr, normalize_at]
  refine (Cert.KernelIdeal.Payload.norm3_apply (iblk3 V c 0 t) p d).trans ?_
  rw [sum_at V c t p d r hr, bound_at V c t p r hr]

/-- What point `t` writes back to the second output is block `t` of the running total plus the normalised array. -/
theorem flushed3_eq (c : Dev nD) (t : Fin cfg3.N) :
    (dat3 V c).flushed 3 t
      = ((cfg3.win 3).blk t).view.read (Elt Ideal)
          (addf (F := Ideal) (φ := .f32) (V c main_v12_1 : Cert.Spec.FArr S100000x64) (Cert.Spec.normalize (V c main_v23))) := by
  show (cfg3.win 3).cut (grid3.coords t) ((dat3 V c).after 3 t) = _
  rw [after3_3]
  unfold out3_3
  rw [View.canon_unit_zero hz]
  simp only [View.ld_unit_zero (S := S5000x64) hz]
  refine funext fun (j : S5000x64.Idx) => ?_
  obtain ⟨p, d, rfl⟩ : ∃ (p : Fin 5000) (d : Fin 64), j = ix2 p d := ⟨j 0, j 1, eq_ix2 j⟩
  have ht := point_lt t
  let r : Fin 100000 := ⟨t.val * 5000 + p.val, by have := p.isLt; omega⟩
  have hr : r.val = t.val * 5000 + p.val := rfl
  show k3_pay2 (iblk3 V c 0 t) (iblk3 V c 1 t) (ix2 p d)
    = addf (F := Ideal) (φ := .f32) (V c main_v12_1 : Cert.Spec.FArr S100000x64) (Cert.Spec.normalize (V c main_v23)) (((cfg3.win 3).blk t).view.emb (ix2 p d))
  rw [out3_emb t p d r hr, addf_apply, normalize_at]
  refine (Cert.KernelIdeal.Payload.acc3_apply (iblk3 V c 0 t) (iblk3 V c 1 t) p d).trans ?_
  rw [sum_at V c t p d r hr, total_at V c t p d r hr, bound_at V c t p r hr]

/-- An index of the first output array is in point `t`'s block iff each coordinate is in the block's range. -/
theorem mem_blk2 (t : Fin cfg3.N) (i : S100000x64.Idx) :
    i ∈ ((cfg3.win 2).blk t).view.set
      ↔ ∀ a : Fin 2, win3_2.index t a * S5000x64.size a ≤ (i a).val ∧ (i a).val < win3_2.index t a * S5000x64.size a + S5000x64.size a := by
  show i ∈ ((View.whole main_v24_0).slice (win3_2.rect t)).set ↔ _
  rw [View.set_slice_whole, Rect.mem_set_unit]
  exact Iff.rfl

theorem mem_blk3 (t : Fin cfg3.N) (i : S100000x64.Idx) :
    i ∈ ((cfg3.win 3).blk t).view.set
      ↔ ∀ a : Fin 2, win3_3.index t a * S5000x64.size a ≤ (i a).val ∧ (i a).val < win3_3.index t a * S5000x64.size a + S5000x64.size a := by
  show i ∈ ((View.whole main_v24_1).slice (win3_3.rect t)).set ↔ _
  rw [View.set_slice_whole, Rect.mem_set_unit]
  exact Iff.rfl

/-- After the launch the first output array is the normalised array: the 20 blocks of 5000 rows tile it. -/
theorem final2 (c : Dev nD) : (dat3 V c).arrAt 2 cfg3.N = Cert.Spec.normalize (V c main_v23) :=
  (dat3 V c).arrAt_eq_of_cover 2 _ (fun t _ => flushed2_eq V c t) fun i => by
    have hi0 : (i 0).val < 100000 := (i 0).isLt
    have hi1 : (i 1).val < 64 := (i 1).isLt
    let t : Fin cfg3.N := ⟨(i 0).val / 5000, by rw [show cfg3.N = 20 from N_3]; omega⟩
    have htv : t.val = (i 0).val / 5000 := rfl
    obtain ⟨-, -, -, -, e4, e5, -, -⟩ := idx_facts t
    refine ⟨t, flush3_2 t, ?_⟩
    rw [mem_blk2]
    intro a
    match a with
    | ⟨0, _⟩ =>
      show win3_2.index t (0 : Fin 2) * 5000 ≤ (i 0).val ∧ (i 0).val < win3_2.index t (0 : Fin 2) * 5000 + 5000
      rw [e4, htv]; omega
    | ⟨1, _⟩ =>
      show win3_2.index t (1 : Fin 2) * 64 ≤ (i 1).val ∧ (i 1).val < win3_2.index t (1 : Fin 2) * 64 + 64
      rw [e5]; omega

/-- After the launch the second output array is the running total plus the normalised array. -/
theorem final3 (c : Dev nD) : (dat3 V c).arrAt 3 cfg3.N
    = addf (F := Ideal) (φ := .f32) (V c main_v12_1 : Cert.Spec.FArr S100000x64) (Cert.Spec.normalize (V c main_v23)) :=
  (dat3 V c).arrAt_eq_of_cover 3 _ (fun t _ => flushed3_eq V c t) fun i => by
    have hi0 : (i 0).val < 100000 := (i 0).isLt
    have hi1 : (i 1).val < 64 := (i 1).isLt
    let t : Fin cfg3.N := ⟨(i 0).val / 5000, by rw [show cfg3.N = 20 from N_3]; omega⟩
    have htv : t.val = (i 0).val / 5000 := rfl
    obtain ⟨-, -, -, -, -, -, e6, e7⟩ := idx_facts t
    refine ⟨t, flush3_3 t, ?_⟩
    rw [mem_blk3]
    intro a
    match a with
    | ⟨0, _⟩ =>
      show win3_3.index t (0 : Fin 2) * 5000 ≤ (i 0).val ∧ (i 0).val < win3_3.index t (0 : Fin 2) * 5000 + 5000
      rw [e6, htv]; omega
    | ⟨1, _⟩ =>
      show win3_3.index t (1 : Fin 2) * 64 ≤ (i 1).val ∧ (i 1).val < win3_3.index t (1 : Fin 2) * 64 + 64
      rw [e7]; omega

end Cert.KernelIdeal.Node3

end
-- ==== Proof.Node5.lean ====
/-
  Launch 5 (the node kernel): its two output arrays as functions of its two input arrays.

  The grid has 20 points; point `t` sees rows `5000 t … 5000 t + 4999` of the summed messages, of the running total and
  of both outputs, all four windows moving together.  A row's normalisation uses that row only, and a block holds whole
  rows, so the row bound computed inside a block is the row bound of the whole array.  Hence the first block a point
  writes back is that block of rows of the normalised array, the second that block of the running total plus the
  normalised array, and the 20 blocks tile the 100000 rows.
-/
import proofs.«158241_j75917841924400_1_alg».proof.Proof.Gen.KernelIdeal.Frame
import proofs.«158241_j75917841924400_1_alg».proof.Proof.Spec
import proofs.«158241_j75917841924400_1_alg».proof.Proof.Payload
import proofs.«158241_j75917841924400_1_alg».proof.Proof.LibIdxOfCoords
import Idealize.ShloMosaic.Lib.Pipeline.Value

set_option maxRecDepth 16384

open scoped BigOperators

noncomputable section

namespace Cert.KernelIdeal.Node5

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every window's block index at point `t` is `(t, 0)`: decided over the grid. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

theorem point_lt (t : Fin cfg5.N) : t.val < 20 :=
  lt_of_lt_of_eq t.isLt (show cfg5.N = 20 from N_5)

/-- The summed-message block at point `t`, entry `(p, d)`: the array's entry `(5000 t + p, d)`. -/
theorem sum_at (c : Dev nD) (t : Fin cfg5.N) (p : Fin 5000) (d : Fin 64) (r : Fin 100000) (hr : r.val = t.val * 5000 + p.val) :
    (iblk5 V c 0 t : Vec Ideal S5000x64 .f32) (ix2 p d) = (V c main_v35 : Cert.Spec.FArr S100000x64) (ix2 r d) := by
  obtain ⟨e0, e1, -, -, -, -, -, -⟩ := idx_facts t
  unfold iblk5
  rw [View.read_apply]
  show V c main_v35 _ = V c main_v35 _
  refine congrArg (V c main_v35 : S100000x64.Idx → Elt Ideal .f32) ?_
  refine Cert.IdxOfCoords.ix2_of (n0 := 100000) (n1 := 64) _ r d ?_ ?_
  · show win5_0.index t (0 : Fin 2) * 5000 + 1 * p.val = r.val
    rw [e0, hr]; omega
  · show win5_0.index t (1 : Fin 2) * 64 + 1 * d.val = d.val
    rw [e1]; omega

/-- The running-total block at point `t`, entry `(p, d)`: the array's entry `(5000 t + p, d)`. -/
theorem total_at (c : Dev nD) (t : Fin cfg5.N) (p : Fin 5000) (d : Fin 64) (r : Fin 100000) (hr : r.val = t.val * 5000 + p.val) :
    (iblk5 V c 1 t : Vec Ideal S5000x64 .f32) (ix2 p d) = (V c main_v24_1 : Cert.Spec.FArr S100000x64) (ix2 r d) := by
  obtain ⟨-, -, e2, e3, -, -, -, -⟩ := idx_facts t
  unfold iblk5
  rw [View.read_apply]
  show V c main_v24_1 _ = V c main_v24_1 _
  refine congrArg (V c main_v24_1 : S100000x64.Idx → Elt Ideal .f32) ?_
  refine Cert.IdxOfCoords.ix2_of (n0 := 100000) (n1 := 64) _ r d ?_ ?_
  · show win5_1.index t (0 : Fin 2) * 5000 + 1 * p.val = r.val
    rw [e2, hr]; omega
  · show win5_1.index t (1 : Fin 2) * 64 + 1 * d.val = d.val
    rw [e3]; omega

/-- A block holds whole rows: the bound of row `p` of the block is the bound of row `5000 t + p` of the array. -/
theorem bound_at (c : Dev nD) (t : Fin cfg5.N) (p : Fin 5000) (r : Fin 100000) (hr : r.val = t.val * 5000 + p.val) :
    Cert.KernelIdeal.Payload.rowBound (n := 5000) (iblk5 V c 0 t : Vec Ideal S5000x64 .f32) p
      = Cert.KernelIdeal.Payload.rowBound (n := 100000) (V c main_v35 : Cert.Spec.FArr S100000x64) r := by
  unfold Cert.KernelIdeal.Payload.rowBound
  refine congrArg (fun z => max (Ideal.sqrt z) _) (Finset.sum_congr rfl fun k _ => ?_)
  rw [sum_at V c t p k r hr]

/-- The normalised array at `(r, d)` in terms of the row bound. -/
theorem normalize_at (s : Cert.Spec.FArr S100000x64) (r : Fin 100000) (d : Fin 64) :
    Cert.Spec.normalize s (ix2 r d) = Ideal.div (s (ix2 r d)) (Cert.KernelIdeal.Payload.rowBound (n := 100000) s r) :=
  Cert.Spec.normalize_apply s r d

/-- The array index of entry `(p, d)` of output block `t` (either output window). -/
theorem out2_emb (t : Fin cfg5.N) (p : Fin 5000) (d : Fin 64) (r : Fin 100000) (hr : r.val = t.val * 5000 + p.val) :
    ((cfg5.win 2).blk t).view.emb (ix2 p d) = ix2 r d := by
  obtain ⟨-, -, -, -, e4, e5, -, -⟩ := idx_facts t
  refine Cert.IdxOfCoords.ix2_of (n0 := 100000) (n1 := 64) _ r d ?_ ?_
  · show win5_2.index t (0 : Fin 2) * 5000 + 1 * p.val = r.val
    rw [e4, hr]; omega
  · show win5_2.index t (1 : Fin 2) * 64 + 1 * d.val = d.val
    rw [e5]; omega

theorem out3_emb (t : Fin cfg5.N) (p : Fin 5000) (d : Fin 64) (r : Fin 100000) (hr : r.val = t.val * 5000 + p.val) :
    ((cfg5.win 3).blk t).view.emb (ix2 p d) = ix2 r d := by
  obtain ⟨-, -, -, -, -, -, e6, e7⟩ := idx_facts t
  refine Cert.IdxOfCoords.ix2_of (n0 := 100000) (n1 := 64) _ r d ?_ ?_
  · show win5_3.index t (0 : Fin 2) * 5000 + 1 * p.val = r.val
    rw [e6, hr]; omega
  · show win5_3.index t (1 : Fin 2) * 64 + 1 * d.val = d.val
    rw [e7]; omega

/-- What point `t` writes back to the first output is block `t` of the normalised array. -/
theorem flushed2_eq (c : Dev nD) (t : Fin cfg5.N) :
    (dat5 V c).flushed 2 t
      = ((cfg5.win 2).blk t).view.read (Elt Ideal) (Cert.Spec.normalize (V c main_v35)) := by
  show (cfg5.win 2).cut (grid5.coords t) ((dat5 V c).after 2 t) = _
  rw [after5_2]
  unfold out5_2
  rw [View.canon_unit_zero hz]
  simp only [View.ld_unit_zero (S := S5000x64) hz]
  refine funext fun (j : S5000x64.Idx) => ?_
  obtain ⟨p, d, rfl⟩ : ∃ (p : Fin 5000) (d : Fin 64), j = ix2 p d := ⟨j 0, j 1, eq_ix2 j⟩
  have ht := point_lt t
  let r : Fin 100000 := ⟨t.val * 5000 + p.val, by have := p.isLt; omega⟩
  have hr : r.val = t.val * 5000 + p.val := rfl
  show k5_pay1 (iblk5 V c 0 t) (ix2 p d)
    = Cert.Spec.normalize (V c main_v35) (((cfg5.win 2).blk t).view.emb (ix2 p d))
  rw [out2_emb t p d r hr, normalize_at]
  refine (Cert.KernelIdeal.Payload.norm5_apply (iblk5 V c 0 t) p d).trans ?_
  rw [sum_at V c t p d r hr, bound_at V c t p r hr]

/-- What point `t` writes back to the second output is block `t` of the running total plus the normalised array. -/
theorem flushed3_eq (c : Dev nD) (t : Fin cfg5.N) :
    (dat5 V c).flushed 3 t
      = ((cfg5.win 3).blk t).view.read (Elt Ideal)
          (addf (F := Ideal) (φ := .f32) (V c main_v24_1 : Cert.Spec.FArr S100000x64) (Cert.Spec.normalize (V c main_v35))) := by
  show (cfg5.win 3).cut (grid5.coords t) ((dat5 V c).after 3 t) = _
  rw [after5_3]
  unfold out5_3
  rw [View.canon_unit_zero hz]
  simp only [View.ld_unit_zero (S := S5000x64) hz]
  refine funext fun (j : S5000x64.Idx) => ?_
  obtain ⟨p, d, rfl⟩ : ∃ (p : Fin 5000) (d : Fin 64), j = ix2 p d := ⟨j 0, j 1, eq_ix2 j⟩
  have ht := point_lt t
  let r : Fin 100000 := ⟨t.val * 5000 + p.val, by have := p.isLt; omega⟩
  have hr : r.val = t.val * 5000 + p.val := rfl
  show k5_pay2 (iblk5 V c 0 t) (iblk5 V c 1 t) (ix2 p d)
    = addf (F := Ideal) (φ := .f32) (V c main_v24_1 : Cert.Spec.FArr S100000x64) (Cert.Spec.normalize (V c main_v35)) (((cfg5.win 3).blk t).view.emb (ix2 p d))
  rw [out3_emb t p d r hr, addf_apply, normalize_at]
  refine (Cert.KernelIdeal.Payload.acc5_apply (iblk5 V c 0 t) (iblk5 V c 1 t) p d).trans ?_
  rw [sum_at V c t p d r hr, total_at V c t p d r hr, bound_at V c t p r hr]

/-- An index of the first output array is in point `t`'s block iff each coordinate is in the block's range. -/
theorem mem_blk2 (t : Fin cfg5.N) (i : S100000x64.Idx) :
    i ∈ ((cfg5.win 2).blk t).view.set
      ↔ ∀ a : Fin 2, win5_2.index t a * S5000x64.size a ≤ (i a).val ∧ (i a).val < win5_2.index t a * S5000x64.size a + S5000x64.size a := by
  show i ∈ ((View.whole main_v36_0).slice (win5_2.rect t)).set ↔ _
  rw [View.set_slice_whole, Rect.mem_set_unit]
  exact Iff.rfl

theorem mem_blk3 (t : Fin cfg5.N) (i : S100000x64.Idx) :
    i ∈ ((cfg5.win 3).blk t).view.set
      ↔ ∀ a : Fin 2, win5_3.index t a * S5000x64.size a ≤ (i a).val ∧ (i a).val < win5_3.index t a * S5000x64.size a + S5000x64.size a := by
  show i ∈ ((View.whole main_v36_1).slice (win5_3.rect t)).set ↔ _
  rw [View.set_slice_whole, Rect.mem_set_unit]
  exact Iff.rfl

/-- After the launch the first output array is the normalised array: the 20 blocks of 5000 rows tile it. -/
theorem final2 (c : Dev nD) : (dat5 V c).arrAt 2 cfg5.N = Cert.Spec.normalize (V c main_v35) :=
  (dat5 V c).arrAt_eq_of_cover 2 _ (fun t _ => flushed2_eq V c t) fun i => by
    have hi0 : (i 0).val < 100000 := (i 0).isLt
    have hi1 : (i 1).val < 64 := (i 1).isLt
    let t : Fin cfg5.N := ⟨(i 0).val / 5000, by rw [show cfg5.N = 20 from N_5]; omega⟩
    have htv : t.val = (i 0).val / 5000 := rfl
    obtain ⟨-, -, -, -, e4, e5, -, -⟩ := idx_facts t
    refine ⟨t, flush5_2 t, ?_⟩
    rw [mem_blk2]
    intro a
    match a with
    | ⟨0, _⟩ =>
      show win5_2.index t (0 : Fin 2) * 5000 ≤ (i 0).val ∧ (i 0).val < win5_2.index t (0 : Fin 2) * 5000 + 5000
      rw [e4, htv]; omega
    | ⟨1, _⟩ =>
      show win5_2.index t (1 : Fin 2) * 64 ≤ (i 1).val ∧ (i 1).val < win5_2.index t (1 : Fin 2) * 64 + 64
      rw [e5]; omega

/-- After the launch the second output array is the running total plus the normalised array. -/
theorem final3 (c : Dev nD) : (dat5 V c).arrAt 3 cfg5.N
    = addf (F := Ideal) (φ := .f32) (V c main_v24_1 : Cert.Spec.FArr S100000x64) (Cert.Spec.normalize (V c main_v35)) :=
  (dat5 V c).arrAt_eq_of_cover 3 _ (fun t _ => flushed3_eq V c t) fun i => by
    have hi0 : (i 0).val < 100000 := (i 0).isLt
    have hi1 : (i 1).val < 64 := (i 1).isLt
    let t : Fin cfg5.N := ⟨(i 0).val / 5000, by rw [show cfg5.N = 20 from N_5]; omega⟩
    have htv : t.val = (i 0).val / 5000 := rfl
    obtain ⟨-, -, -, -, -, -, e6, e7⟩ := idx_facts t
    refine ⟨t, flush5_3 t, ?_⟩
    rw [mem_blk3]
    intro a
    match a with
    | ⟨0, _⟩ =>
      show win5_3.index t (0 : Fin 2) * 5000 ≤ (i 0).val ∧ (i 0).val < win5_3.index t (0 : Fin 2) * 5000 + 5000
      rw [e6, htv]; omega
    | ⟨1, _⟩ =>
      show win5_3.index t (1 : Fin 2) * 64 ≤ (i 1).val ∧ (i 1).val < win5_3.index t (1 : Fin 2) * 64 + 64
      rw [e7]; omega

end Cert.KernelIdeal.Node5

end
-- ==== Proof.Chain.lean ====
/-
  The kernel program's result is the specification of its arguments.

  The buffer contents at the thirteen segment boundaries are followed from the launch to the return, keeping at each
  boundary only the buffers a later segment reads: the four arguments, the weight column, and, round by round, the
  gathered rows, the messages, their per-row sums, the normalised features and the running total.  A host stretch is
  read by its operations; a launch's output array is the whole-array function its blocks tile; an input array of a
  launch, and every buffer a launch does not touch, is what it was.  At the last boundary the result buffer holds the
  running total after three rounds divided by four.
-/
import proofs.«158241_j75917841924400_1_alg».proof.Proof.Gen.KernelIdeal.Frame
import proofs.«158241_j75917841924400_1_alg».proof.Proof.Spec
import proofs.«158241_j75917841924400_1_alg».proof.Proof.HostOps
import proofs.«158241_j75917841924400_1_alg».proof.Proof.Edge0
import proofs.«158241_j75917841924400_1_alg».proof.Proof.Edge2
import proofs.«158241_j75917841924400_1_alg».proof.Proof.Edge4
import proofs.«158241_j75917841924400_1_alg».proof.Proof.Node1
import proofs.«158241_j75917841924400_1_alg».proof.Proof.Node3
import proofs.«158241_j75917841924400_1_alg».proof.Proof.Node5

set_option maxRecDepth 16384

noncomputable section

namespace Cert.KernelIdeal.Chain

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The input features, the destination and source indices and the edge weights, as launched on core `c`. -/
abbrev X : Cert.Spec.FArr S100000x64 := m ((c.tc : Thread nD τ).loc main_arg0)
abbrev Rows : Cert.Spec.IArr S800000 := m ((c.tc : Thread nD τ).loc main_arg1)
abbrev Cols : Cert.Spec.IArr S800000 := m ((c.tc : Thread nD τ).loc main_arg2)
abbrev Vals : Cert.Spec.FArr S800000 := m ((c.tc : Thread nD τ).loc main_arg3)
/-- The weight column. -/
abbrev wcol : Cert.Spec.FArr S800000x1 := Cert.Spec.weightCol (Vals m c)
/-- One round from features `h`. -/
abbrev rnd (h : Cert.Spec.FArr S100000x64) : Cert.Spec.FArr S100000x64 := Cert.Spec.round (Rows m c) (Cols m c) (Vals m c) h
/-- The messages of a round from features `h`. -/
abbrev msgs (h : Cert.Spec.FArr S100000x64) : Cert.Spec.FArr S800000x64 :=
  Cert.Spec.messages (wcol m c) (Cert.Spec.gathered h (Cols m c))
/-- A running total plus the normalisation of a sum. -/
abbrev step (a s : Cert.Spec.FArr S100000x64) : Cert.Spec.FArr S100000x64 :=
  addf (F := Ideal) (φ := .f32) a (Cert.Spec.normalize s)

/-! ## Round 1 -/

theorem b1_arg0 : W1 m ρ c (Proc.devRef .tc main_arg0) = X m c := HostOps.ops0_keep_arg0 (W0 m ρ c)
theorem b1_arg1 : W1 m ρ c (Proc.devRef .tc main_arg1) = Rows m c := HostOps.ops0_keep_arg1 (W0 m ρ c)
theorem b1_arg2 : W1 m ρ c (Proc.devRef .tc main_arg2) = Cols m c := HostOps.ops0_keep_arg2 (W0 m ρ c)
theorem b1_v0 : W1 m ρ c (Proc.devRef .tc main_v0) = wcol m c := HostOps.ops0_weights (W0 m ρ c)
theorem b1_v7 : W1 m ρ c (Proc.devRef .tc main_v7) = Cert.Spec.gathered (X m c) (Cols m c) := HostOps.ops0_gather (W0 m ρ c)

theorem b2_v8 : W2 m ρ c (Proc.devRef .tc main_v8) = msgs m c (X m c) :=
  (W2_arr m ρ c 2).trans ((Edge0.final (V1 m ρ) c).trans (congrArg₂ Cert.Spec.messages (b1_v0 m ρ c) (b1_v7 m ρ c)))
theorem b2_v0 : W2 m ρ c (Proc.devRef .tc main_v0) = wcol m c :=
  (W2_arr m ρ c 0).trans (((dat0 (V1 m ρ) c).arrAt_in 0 rfl _).trans ((A_eq0 (V1 m ρ) c 0).trans (b1_v0 m ρ c)))
theorem b2_arg0 : W2 m ρ c (Proc.devRef .tc main_arg0) = X m c := (W2_of_ne m ρ c main_arg0 (by decide)).trans (b1_arg0 m ρ c)
theorem b2_arg1 : W2 m ρ c (Proc.devRef .tc main_arg1) = Rows m c := (W2_of_ne m ρ c main_arg1 (by decide)).trans (b1_arg1 m ρ c)
theorem b2_arg2 : W2 m ρ c (Proc.devRef .tc main_arg2) = Cols m c := (W2_of_ne m ρ c main_arg2 (by decide)).trans (b1_arg2 m ρ c)

theorem b3_v11 : W3 m ρ c (Proc.devRef .tc main_v11) = Cert.Spec.segmentSum (Rows m c) (msgs m c (X m c)) :=
  (HostOps.ops1_sum (W2 m ρ c)).trans (congrArg₂ Cert.Spec.segmentSum (b2_arg1 m ρ c) (b2_v8 m ρ c))
theorem b3_arg0 : W3 m ρ c (Proc.devRef .tc main_arg0) = X m c := (HostOps.ops1_keep_arg0 (W2 m ρ c)).trans (b2_arg0 m ρ c)
theorem b3_arg1 : W3 m ρ c (Proc.devRef .tc main_arg1) = Rows m c := (HostOps.ops1_keep_arg1 (W2 m ρ c)).trans (b2_arg1 m ρ c)
theorem b3_arg2 : W3 m ρ c (Proc.devRef .tc main_arg2) = Cols m c := (HostOps.ops1_keep_arg2 (W2 m ρ c)).trans (b2_arg2 m ρ c)
theorem b3_v0 : W3 m ρ c (Proc.devRef .tc main_v0) = wcol m c := (HostOps.ops1_keep_v0 (W2 m ρ c)).trans (b2_v0 m ρ c)

theorem b4_h : W4 m ρ c (Proc.devRef .tc main_v12_0) = rnd m c (X m c) :=
  (W4_arr m ρ c 2).trans ((Node1.final2 (V3 m ρ) c).trans (congrArg Cert.Spec.normalize (b3_v11 m ρ c)))
theorem b4_acc : W4 m ρ c (Proc.devRef .tc main_v12_1) = addf (F := Ideal) (φ := .f32) (X m c) (rnd m c (X m c)) :=
  (W4_arr m ρ c 3).trans ((Node1.final3 (V3 m ρ) c).trans (congrArg₂ step (b3_arg0 m ρ c) (b3_v11 m ρ c)))
theorem b4_v0 : W4 m ρ c (Proc.devRef .tc main_v0) = wcol m c := (W4_of_ne m ρ c main_v0 (by decide)).trans (b3_v0 m ρ c)
theorem b4_arg1 : W4 m ρ c (Proc.devRef .tc main_arg1) = Rows m c := (W4_of_ne m ρ c main_arg1 (by decide)).trans (b3_arg1 m ρ c)
theorem b4_arg2 : W4 m ρ c (Proc.devRef .tc main_arg2) = Cols m c := (W4_of_ne m ρ c main_arg2 (by decide)).trans (b3_arg2 m ρ c)

/-! ## Round 2 -/

/-- The features and the running total after round 1. -/
abbrev h1 : Cert.Spec.FArr S100000x64 := rnd m c (X m c)
abbrev t1 : Cert.Spec.FArr S100000x64 := addf (F := Ideal) (φ := .f32) (X m c) (h1 m c)

theorem b5_v19 : W5 m ρ c (Proc.devRef .tc main_v19) = Cert.Spec.gathered (h1 m c) (Cols m c) :=
  (HostOps.ops2_gather (W4 m ρ c)).trans (congrArg₂ Cert.Spec.gathered (b4_h m ρ c) (b4_arg2 m ρ c))
theorem b5_arg1 : W5 m ρ c (Proc.devRef .tc main_arg1) = Rows m c := (HostOps.ops2_keep_arg1 (W4 m ρ c)).trans (b4_arg1 m ρ c)
theorem b5_arg2 : W5 m ρ c (Proc.devRef .tc main_arg2) = Cols m c := (HostOps.ops2_keep_arg2 (W4 m ρ c)).trans (b4_arg2 m ρ c)
theorem b5_v0 : W5 m ρ c (Proc.devRef .tc main_v0) = wcol m c := (HostOps.ops2_keep_v0 (W4 m ρ c)).trans (b4_v0 m ρ c)
theorem b5_acc : W5 m ρ c (Proc.devRef .tc main_v12_1) = t1 m c := (HostOps.ops2_keep_v12_1 (W4 m ρ c)).trans (b4_acc m ρ c)

theorem b6_v20 : W6 m ρ c (Proc.devRef .tc main_v20) = msgs m c (h1 m c) :=
  (W6_arr m ρ c 2).trans ((Edge2.final (V5 m ρ) c).trans (congrArg₂ Cert.Spec.messages (b5_v0 m ρ c) (b5_v19 m ρ c)))
theorem b6_v0 : W6 m ρ c (Proc.devRef .tc main_v0) = wcol m c :=
  (W6_arr m ρ c 0).trans (((dat2 (V5 m ρ) c).arrAt_in 0 rfl _).trans ((A_eq2 (V5 m ρ) c 0).trans (b5_v0 m ρ c)))
theorem b6_arg1 : W6 m ρ c (Proc.devRef .tc main_arg1) = Rows m c := (W6_of_ne m ρ c main_arg1 (by decide)).trans (b5_arg1 m ρ c)
theorem b6_arg2 : W6 m ρ c (Proc.devRef .tc main_arg2) = Cols m c := (W6_of_ne m ρ c main_arg2 (by decide)).trans (b5_arg2 m ρ c)
theorem b6_acc : W6 m ρ c (Proc.devRef .tc main_v12_1) = t1 m c := (W6_of_ne m ρ c main_v12_1 (by decide)).trans (b5_acc m ρ c)

theorem b7_v23 : W7 m ρ c (Proc.devRef .tc main_v23) = Cert.Spec.segmentSum (Rows m c) (msgs m c (h1 m c)) :=
  (HostOps.ops3_sum (W6 m ρ c)).trans (congrArg₂ Cert.Spec.segmentSum (b6_arg1 m ρ c) (b6_v20 m ρ c))
theorem b7_arg1 : W7 m ρ c (Proc.devRef .tc main_arg1) = Rows m c := (HostOps.ops3_keep_arg1 (W6 m ρ c)).trans (b6_arg1 m ρ c)
theorem b7_arg2 : W7 m ρ c (Proc.devRef .tc main_arg2) = Cols m c := (HostOps.ops3_keep_arg2 (W6 m ρ c)).trans (b6_arg2 m ρ c)
theorem b7_v0 : W7 m ρ c (Proc.devRef .tc main_v0) = wcol m c := (HostOps.ops3_keep_v0 (W6 m ρ c)).trans (b6_v0 m ρ c)
theorem b7_acc : W7 m ρ c (Proc.devRef .tc main_v12_1) = t1 m c := (HostOps.ops3_keep_v12_1 (W6 m ρ c)).trans (b6_acc m ρ c)

theorem b8_h : W8 m ρ c (Proc.devRef .tc main_v24_0) = rnd m c (h1 m c) :=
  (W8_arr m ρ c 2).trans ((Node3.final2 (V7 m ρ) c).trans (congrArg Cert.Spec.normalize (b7_v23 m ρ c)))
theorem b8_acc : W8 m ρ c (Proc.devRef .tc main_v24_1) = addf (F := Ideal) (φ := .f32) (t1 m c) (rnd m c (h1 m c)) :=
  (W8_arr m ρ c 3).trans ((Node3.final3 (V7 m ρ) c).trans (congrArg₂ step (b7_acc m ρ c) (b7_v23 m ρ c)))
theorem b8_v0 : W8 m ρ c (Proc.devRef .tc main_v0) = wcol m c := (W8_of_ne m ρ c main_v0 (by decide)).trans (b7_v0 m ρ c)
theorem b8_arg1 : W8 m ρ c (Proc.devRef .tc main_arg1) = Rows m c := (W8_of_ne m ρ c main_arg1 (by decide)).trans (b7_arg1 m ρ c)
theorem b8_arg2 : W8 m ρ c (Proc.devRef .tc main_arg2) = Cols m c := (W8_of_ne m ρ c main_arg2 (by decide)).trans (b7_arg2 m ρ c)

/-! ## Round 3 -/

/-- The features and the running total after round 2. -/
abbrev h2 : Cert.Spec.FArr S100000x64 := rnd m c (h1 m c)
abbrev t2 : Cert.Spec.FArr S100000x64 := addf (F := Ideal) (φ := .f32) (t1 m c) (h2 m c)

theorem b9_v31 : W9 m ρ c (Proc.devRef .tc main_v31) = Cert.Spec.gathered (h2 m c) (Cols m c) :=
  (HostOps.ops4_gather (W8 m ρ c)).trans (congrArg₂ Cert.Spec.gathered (b8_h m ρ c) (b8_arg2 m ρ c))
theorem b9_arg1 : W9 m ρ c (Proc.devRef .tc main_arg1) = Rows m c := (HostOps.ops4_keep_arg1 (W8 m ρ c)).trans (b8_arg1 m ρ c)
theorem b9_v0 : W9 m ρ c (Proc.devRef .tc main_v0) = wcol m c := (HostOps.ops4_keep_v0 (W8 m ρ c)).trans (b8_v0 m ρ c)
theorem b9_acc : W9 m ρ c (Proc.devRef .tc main_v24_1) = t2 m c := (HostOps.ops4_keep_v24_1 (W8 m ρ c)).trans (b8_acc m ρ c)

theorem b10_v32 : W10 m ρ c (Proc.devRef .tc main_v32) = msgs m c (h2 m c) :=
  (W10_arr m ρ c 2).trans ((Edge4.final (V9 m ρ) c).trans (congrArg₂ Cert.Spec.messages (b9_v0 m ρ c) (b9_v31 m ρ c)))
theorem b10_arg1 : W10 m ρ c (Proc.devRef .tc main_arg1) = Rows m c := (W10_of_ne m ρ c main_arg1 (by decide)).trans (b9_arg1 m ρ c)
theorem b10_acc : W10 m ρ c (Proc.devRef .tc main_v24_1) = t2 m c := (W10_of_ne m ρ c main_v24_1 (by decide)).trans (b9_acc m ρ c)

theorem b11_v35 : W11 m ρ c (Proc.devRef .tc main_v35) = Cert.Spec.segmentSum (Rows m c) (msgs m c (h2 m c)) :=
  (HostOps.ops5_sum (W10 m ρ c)).trans (congrArg₂ Cert.Spec.segmentSum (b10_arg1 m ρ c) (b10_v32 m ρ c))
theorem b11_acc : W11 m ρ c (Proc.devRef .tc main_v24_1) = t2 m c := (HostOps.ops5_keep_v24_1 (W10 m ρ c)).trans (b10_acc m ρ c)

theorem b12_acc : W12 m ρ c (Proc.devRef .tc main_v36_1) = addf (F := Ideal) (φ := .f32) (t2 m c) (rnd m c (h2 m c)) :=
  (W12_arr m ρ c 3).trans ((Node5.final3 (V11 m ρ) c).trans (congrArg₂ step (b11_acc m ρ c) (b11_v35 m ρ c)))

/-! ## The result -/

/-- At the last boundary the result buffer holds the specification of the four argument arrays. -/
theorem result_eq : W13 m ρ c (Proc.devRef .tc main_v38) = Cert.Spec.result (X m c) (Rows m c) (Cols m c) (Vals m c) :=
  (HostOps.ops6_mean (W12 m ρ c)).trans
    (congrArg (fun a : Cert.Spec.FArr S100000x64 => Host.divf (F := Ideal) (φ := .f32) a
      (broadcastInDim S100000x64 ![] bcast_S_S100000x64 (constant (F := Ideal) S_ .f32 0x40800000#32))) (b12_acc m ρ c))

end Cert.KernelIdeal.Chain

end
-- ==== Proof.RefIsSpec.lean ====
/-
  The reference program computes the specification.

  Its run ends with the result buffer at the composed term of its host operations.  Grouped by rounds,
  that term is the specification's: each round's gather, product, scatter-add and normalisation in the same order on
  the same operands, the running sum taken in the same order, and the final division by four.
-/
import proofs.«158241_j75917841924400_1_alg».proof.Proof.Gen.ReferenceIdeal.Run
import proofs.«158241_j75917841924400_1_alg».proof.Proof.Spec

noncomputable section

namespace Cert.ReferenceIdeal.Hand

open Cert.ReferenceIdeal Cert.ReferenceIdeal.Gen Idealize.ShloMosaic Idealize.ShloMosaic.TcCoe Idealize.SL.Sem

set_option maxRecDepth 8192 in
/-- The reference's result term is the specification of its four argument arrays. -/
theorem result_eq (m : (ℓ : Loc nD τ sig) → Buf (Elt Ideal) ℓ) (c : Dev nD) :
    (Cert.ReferenceIdeal.Value.res_main_v67 (F := Ideal) m c : Cert.Spec.FArr S100000x64)
      = Cert.Spec.result (m ((c.tc : Thread nD τ).loc main_arg0)) (m ((c.tc : Thread nD τ).loc main_arg1))
          (m ((c.tc : Thread nD τ).loc main_arg2)) (m ((c.tc : Thread nD τ).loc main_arg3)) := by
  unfold Cert.ReferenceIdeal.Value.res_main_v67 Cert.Spec.result Cert.Spec.round Cert.Spec.normalize Cert.Spec.segmentSum
    Cert.Spec.messages Cert.Spec.weightCol Cert.Spec.gathered Cert.Spec.sourceIdx
  rfl

end Cert.ReferenceIdeal.Hand

end
-- ==== Proof.lean ====
/-
  Three rounds of sparse message passing with row normalisation: the tiled program against the plain one.

  Both programs take node features `x` (100000 rows of 64), an edge list (`rows`, `cols`) and one weight per edge, and
  return the mean of `x` and the outputs of three rounds; a round gathers each edge's source row, multiplies it by the
  edge's weight, adds the products up per destination row and divides each row of the sum by the larger of its
  Euclidean length and a small constant.  The plain program does every step on whole arrays.  The tiled one runs the
  per-edge product in blocks of 8000 edges and the normalisation with the running sum in blocks of 5000 rows, and keeps
  the gather and the scatter-add on whole arrays, exactly as the plain program has them.

  At the extended reals the two agree entry by entry, and for every input: a block of edges holds whole edges and a
  block of rows holds whole rows, so each blocked step is the whole-array step restricted to the block, and the blocks
  tile their arrays; a row's sum of squares is the same sum whether a lane reduction adds it from nothing or the host
  adds it onto a zero; the square root, the maximum and the quotient are the same functions in both programs.  No
  property of the inputs is used.

  Proof/Spec.lean states the common result as one function of the four arguments, Proof/RefIsSpec.lean that the plain
  program computes it, Proof/Payload.lean what a block of either kernel stores, Proof/Edge*.lean and Proof/Node*.lean that
  each launch's output arrays are the whole-array steps, Proof/HostOps.lean what the host operations between the launches
  leave, Proof/Chain.lean the tiled program's result, and Proof/KernelRun.lean that its run ends there.
-/
import proofs.«158241_j75917841924400_1_alg».proof.Defs
import proofs.«158241_j75917841924400_1_alg».proof.Proof.Gen.Kernel
import proofs.«158241_j75917841924400_1_alg».proof.Proof.Gen.Kernel.Frame
import proofs.«158241_j75917841924400_1_alg».proof.Proof.Gen.KernelIdeal
import proofs.«158241_j75917841924400_1_alg».proof.Proof.Gen.KernelIdeal.Frame
import proofs.«158241_j75917841924400_1_alg».proof.Proof.Gen.ReferenceIdeal
import proofs.«158241_j75917841924400_1_alg».proof.Proof.Gen.ReferenceIdeal.Run
import proofs.«158241_j75917841924400_1_alg».proof.Proof.Gen.Pre_finite_inputs
import proofs.«158241_j75917841924400_1_alg».proof.Proof.KernelRun
import proofs.«158241_j75917841924400_1_alg».proof.Proof.Chain
import proofs.«158241_j75917841924400_1_alg».proof.Proof.RefIsSpec
import Idealize.ShloMosaic.Adequacy
import Idealize.ShloMosaic.Init

noncomputable section

namespace Cert.Proof

open Idealize.ShloMosaic Idealize.SL.Sem

/-- The tiled program at the word level runs and leaves its arguments alone. -/
theorem frame_k : Cert.frame_Kernel := fun m ρ _ => Cert.Kernel.Gen.frame m ρ

/-- So does its reading at the extended reals. -/
theorem frame_ki : Cert.frame_KernelIdeal := fun m ρ _ => Cert.KernelIdeal.Gen.frame m ρ

/-- The plain program runs and leaves its arguments alone: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Reading the tiled program at the extended reals rewrote no operation. -/
theorem preserves : Cert.preserves_Kernel_KernelIdeal := trivial

/-- From memories agreeing on the arguments both programs end with the specification of those arguments. -/
theorem algebraic : Cert.algebraic_KernelIdeal_ReferenceIdeal := by
  intro m ρ m' ρ' _ hagree
  refine ⟨fun c => Cert.Spec.result (Cert.KernelIdeal.Chain.X m c) (Cert.KernelIdeal.Chain.Rows m c)
    (Cert.KernelIdeal.Chain.Cols m c) (Cert.KernelIdeal.Chain.Vals m c), ?_, ?_⟩
  · exact (θ_run Cert.KernelIdeal.defs _ _).mono
      (fun r h c => ⟨(h c).1.trans (Cert.KernelIdeal.Chain.result_eq m ρ c), (h c).2⟩)
      (Cert.KernelIdeal.Hand.run_last (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Hand.result_eq m' c).trans ?_
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
